-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v93)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v93) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v112) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x3 : Shape := ⟨2, ![128, 3]⟩
abbrev S128 : Shape := ⟨1, ![128]⟩
abbrev S4x4096 : Shape := ⟨2, ![4, 4096]⟩
abbrev S_ : Shape := ⟨0, ![]⟩

class Facts : Prop where
  bcast_S_S128x3 : S_.BroadcastsInDim S128x3 (![] : Fin 0 → Fin S128x3.rank)
  reducesTo_S128x3_S_d0_1 : S128x3.ReducesTo [0, 1] S_
  h_S_ : 0 < S_.numel
  bcast_S_S128 : S_.BroadcastsInDim S128 (![] : Fin 0 → Fin S128.rank)
  reducesTo_S128_S_d0 : S128.ReducesTo [0] S_
  bcast_S_S4x4096 : S_.BroadcastsInDim S4x4096 (![] : Fin 0 → Fin S4x4096.rank)
  reducesTo_S4x4096_S_d0_1 : S4x4096.ReducesTo [0, 1] S_

variable [Facts]

def fn_part2 {F : FTy → Type} [FloatOps F] (main_arg7 : FVec F S4x4096 .f32) (main_v33 : IVec S_ 1) : IVec S_ 1 :=
  let main_v34 : FVec F S4x4096 .f32 := Host.absf main_arg7
  let main_cst_12 : FVec F S_ .f32 := constant S_ .f32 0x7F800000#32
  let main_v35 : FVec F S4x4096 .f32 := broadcastInDim S4x4096 ![] bcast_S_S4x4096 main_cst_12
  let main_v36 : IVec S4x4096 1 := cmpf .olt main_v34 main_v35
  let main_c_13 : IVec S_ 1 := constantI S_ 1 1#1
  let main_v37 : IVec S_ 1 := (fun x v => Host.reduce IntOp.andi x v reducesTo_S4x4096_S_d0_1 h_S_) main_v36 main_c_13
  let main_v38 : IVec S_ 1 := andi main_v33 main_v37
  main_v38

def fn_part1 {F : FTy → Type} [FloatOps F] (main_arg4 : FVec F S4x4096 .f32) (main_arg5 : FVec F S4x4096 .f32) (main_arg6 : FVec F S4x4096 .f32) (main_arg7 : FVec F S4x4096 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S4x4096 .f32 := Host.absf main_arg4
  let main_cst_6 : FVec F S_ .f32 := constant S_ .f32 0x7F800000#32
  let main_v20 : FVec F S4x4096 .f32 := broadcastInDim S4x4096 ![] bcast_S_S4x4096 main_cst_6
  let main_v21 : IVec S4x4096 1 := cmpf .olt main_v19 main_v20
  let main_c_7 : IVec S_ 1 := constantI S_ 1 1#1
  let main_v22 : IVec S_ 1 := (fun x v => Host.reduce IntOp.andi x v reducesTo_S4x4096_S_d0_1 h_S_) main_v21 main_c_7
  let main_v23 : IVec S_ 1 := andi main_v18 main_v22
  let main_v24 : FVec F S4x4096 .f32 := Host.absf main_arg5
  let main_cst_8 : FVec F S_ .f32 := constant S_ .f32 0x7F800000#32
  let main_v25 : FVec F S4x4096 .f32 := broadcastInDim S4x4096 ![] bcast_S_S4x4096 main_cst_8
  let main_v26 : IVec S4x4096 1 := cmpf .olt main_v24 main_v25
  let main_c_9 : IVec S_ 1 := constantI S_ 1 1#1
  let main_v27 : IVec S_ 1 := (fun x v => Host.reduce IntOp.andi x v reducesTo_S4x4096_S_d0_1 h_S_) main_v26 main_c_9
  let main_v28 : IVec S_ 1 := andi main_v23 main_v27
  let main_v29 : FVec F S4x4096 .f32 := Host.absf main_arg6
  let main_cst_10 : FVec F S_ .f32 := constant S_ .f32 0x7F800000#32
  let main_v30 : FVec F S4x4096 .f32 := broadcastInDim S4x4096 ![] bcast_S_S4x4096 main_cst_10
  let main_v31 : IVec S4x4096 1 := cmpf .olt main_v29 main_v30
  let main_c_11 : IVec S_ 1 := constantI S_ 1 1#1
  let main_v32 : IVec S_ 1 := (fun x v => Host.reduce IntOp.andi x v reducesTo_S4x4096_S_d0_1 h_S_) main_v31 main_c_11
  let main_v33 : IVec S_ 1 := andi main_v28 main_v32
  fn_part2 (F := F) main_arg7 main_v33

def fn {F : FTy → Type} [FloatOps F] (main_arg0 : FVec F S128x3 .f32) (main_arg1 : FVec F S128x3 .f32) (main_arg2 : FVec F S128x3 .f32) (main_arg3 : FVec F S128 .f32) (main_arg4 : FVec F S4x4096 .f32) (main_arg5 : FVec F S4x4096 .f32) (main_arg6 : FVec F S4x4096 .f32) (main_arg7 : FVec F S4x4096 .f32) (main_arg8 : IVec S128 1) (main_arg9 : IVec S128 1) (main_arg10 : IVec S128 1) : IVec S_ 1 :=
  let main_v0 : FVec F S128x3 .f32 := Host.absf main_arg0
  let main_cst : FVec F S_ .f32 := constant S_ .f32 0x7F800000#32
  let main_v1 : FVec F S128x3 .f32 := broadcastInDim S128x3 ![] bcast_S_S128x3 main_cst
  let main_v2 : IVec S128x3 1 := cmpf .olt main_v0 main_v1
  let main_c : IVec S_ 1 := constantI S_ 1 1#1
  let main_v3 : IVec S_ 1 := (fun x v => Host.reduce IntOp.andi x v reducesTo_S128x3_S_d0_1 h_S_) main_v2 main_c
  let main_v4 : FVec F S128x3 .f32 := Host.absf main_arg1
  let main_cst_0 : FVec F S_ .f32 := constant S_ .f32 0x7F800000#32
  let main_v5 : FVec F S128x3 .f32 := broadcastInDim S128x3 ![] bcast_S_S128x3 main_cst_0
  let main_v6 : IVec S128x3 1 := cmpf .olt main_v4 main_v5
  let main_c_1 : IVec S_ 1 := constantI S_ 1 1#1
  let main_v7 : IVec S_ 1 := (fun x v => Host.reduce IntOp.andi x v reducesTo_S128x3_S_d0_1 h_S_) main_v6 main_c_1
  let main_v8 : IVec S_ 1 := andi main_v3 main_v7
  let main_v9 : FVec F S128x3 .f32 := Host.absf main_arg2
  let main_cst_2 : FVec F S_ .f32 := constant S_ .f32 0x7F800000#32
  let main_v10 : FVec F S128x3 .f32 := broadcastInDim S128x3 ![] bcast_S_S128x3 main_cst_2
  let main_v11 : IVec S128x3 1 := cmpf .olt main_v9 main_v10
  let main_c_3 : IVec S_ 1 := constantI S_ 1 1#1
  let main_v12 : IVec S_ 1 := (fun x v => Host.reduce IntOp.andi x v reducesTo_S128x3_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_v13 main_v16
-- ==== Kernel.lean ====
abbrev S128x3 : Shape := ⟨2, ![128, 3]⟩
abbrev S128 : Shape := ⟨1, ![128]⟩
abbrev S4x4096 : Shape := ⟨2, ![4, 4096]⟩
abbrev S128x1 : Shape := ⟨2, ![128, 1]⟩
abbrev S_ : Shape := ⟨0, ![]⟩
abbrev S3 : Shape := ⟨1, ![3]⟩
abbrev S1x3 : Shape := ⟨2, ![1, 3]⟩
abbrev S1 : Shape := ⟨1, ![1]⟩
abbrev S1x1 : Shape := ⟨2, ![1, 1]⟩
abbrev S128x4 : Shape := ⟨2, ![128, 4]⟩
abbrev S128x4096 : Shape := ⟨2, ![128, 4096]⟩
abbrev S4096x128 : Shape := ⟨2, ![4096, 128]⟩
abbrev S32x128x128 : Shape := ⟨3, ![32, 128, 128]⟩
abbrev S128x1x3 : Shape := ⟨3, ![128, 1, 3]⟩
abbrev S1x128x3 : Shape := ⟨3, ![1, 128, 3]⟩
abbrev S128x128x3 : Shape := ⟨3, ![128, 128, 3]⟩
abbrev S1x128 : Shape := ⟨2, ![1, 128]⟩
abbrev S128x128 : Shape := ⟨2, ![128, 128]⟩
abbrev S1x128x128 : Shape := ⟨3, ![1, 128, 128]⟩
abbrev S2x128x128 : Shape := ⟨3, ![2, 128, 128]⟩
abbrev S1x32x128x128 : Shape := ⟨4, ![1, 32, 128, 128]⟩
abbrev S2x32x128x128 : Shape := ⟨4, ![2, 32, 128, 128]⟩
abbrev S1x1x128x128 : Shape := ⟨4, ![1, 1, 128, 128]⟩
abbrev S128x1x128 : Shape := ⟨3, ![128, 1, 128]⟩
abbrev S128x128x128 : Shape := ⟨3, ![128, 128, 128]⟩

abbrev nBuf : Space → Nat
  | .hbm => 117
  | .vmem => 13
  | .smem => 0
  | _ => 0

abbrev bufTy : (tb : Table) → Fin (tcTables nBuf tb) → BufTy
  | .hbm, ⟨0, _⟩ => ⟨S128x3, .f32⟩
  | .hbm, ⟨1, _⟩ => ⟨S128x3, .f32⟩
  | .hbm, ⟨2, _⟩ => ⟨S128x3, .f32⟩
  | .hbm, ⟨3, _⟩ => ⟨S128, .f32⟩
  | .hbm, ⟨4, _⟩ => ⟨S4x4096, .f32⟩
  | .hbm, ⟨5, _⟩ => ⟨S4x4096, .f32⟩
  | .hbm, ⟨6, _⟩ => ⟨S4x4096, .f32⟩
  | .hbm, ⟨7, _⟩ => ⟨S4x4096, .f32⟩
  | .hbm, ⟨8, _⟩ => ⟨S128, .i1⟩
  | .hbm, ⟨9, _⟩ => ⟨S128, .i1⟩
  | .hbm, ⟨10, _⟩ => ⟨S128, .i1⟩
  | .hbm, ⟨11, _⟩ => ⟨S128x1, .i1⟩
  | .hbm, ⟨12, _⟩ => ⟨S128x1, .f32⟩
  | .hbm, ⟨13, _⟩ => ⟨S128x3, .f32⟩
  | .hbm, ⟨14, _⟩ => ⟨S128x3, .f32⟩
  | .hbm, ⟨15, _⟩ => ⟨S_, .f32⟩
  | .hbm, ⟨16, _⟩ => ⟨S3, .f32⟩
  | .hbm, ⟨17, _⟩ => ⟨S1x3, .f32⟩
  | .hbm, ⟨18, _⟩ => ⟨S_, .f32⟩
  | .hbm, ⟨19, _⟩ => ⟨S1, .f32⟩
  | .hbm, ⟨20, _⟩ => ⟨S1x1, .f32⟩
  | .hbm, ⟨21, _⟩ => ⟨S_, .f32⟩
  | .hbm, ⟨22, _⟩ => ⟨S1x1, .f32⟩
  | .hbm, ⟨23, _⟩ => ⟨S1x1, .f32⟩
  | .hbm, ⟨24, _⟩ => ⟨S1x3, .f32⟩
  | .hbm, ⟨25, _⟩ => ⟨S1x3, .f32⟩
  | .hbm, ⟨26, _⟩ => ⟨S128x3, .f32⟩
  | .hbm, ⟨27, _⟩ => ⟨S128x3, .f32⟩
  | .hbm, ⟨28, _⟩ => ⟨S128x1, .f32⟩
  | .hbm, ⟨29, _⟩ => ⟨S128x4, .f32⟩
  | .hbm, ⟨30, _⟩ => ⟨S128x4, .f32⟩
  | .hbm, ⟨31, _⟩ => ⟨S128x4, .f32⟩
  | .hbm, ⟨32, _⟩ => ⟨S128x4096, .f32⟩
  | .hbm, ⟨33, _⟩ => ⟨S4096x128, .f32⟩
  | .hbm, ⟨34, _⟩ => ⟨S128x4096, .f32⟩
  | .hbm, ⟨35, _⟩ => ⟨S4096x128, .f32⟩
  | .hbm, ⟨36, _⟩ => ⟨S32x128x128, .f32⟩
  | .hbm, ⟨37, _⟩ => ⟨S32x128x128, .f32⟩
  | .hbm, ⟨38, _⟩ => ⟨S128x4096, .f32⟩
  | .hbm, ⟨39, _⟩ => ⟨S4096x128, .f32⟩
  | .hbm, ⟨40, _⟩ => ⟨S128x4096, .f32⟩
  | .hbm, ⟨41, _⟩ => ⟨S4096x128, .f32⟩
  | .hbm, ⟨42, _⟩ => ⟨S32x128x128, .f32⟩
  | .hbm, ⟨43, _⟩ => ⟨S32x128x128, .f32⟩
  | .hbm, ⟨44, _⟩ => ⟨S128x1x3, .f32⟩
  | .hbm, ⟨45, _⟩ => ⟨S1x128x3, .f32⟩
  | .hbm, ⟨46, _⟩ => ⟨S128x128x3, .f32⟩
  | .hbm, ⟨47, _⟩ => ⟨S128x128x3, .f32⟩
  | .hbm, ⟨48, _⟩ => ⟨S128x128x3, .f32⟩
  | .hbm, ⟨49, _⟩ => ⟨S128x1, .i1⟩
  | .hbm, ⟨50, _⟩ => ⟨S1x128, .i1⟩
  | .hbm, ⟨51, _⟩ => ⟨S128x128, .i1⟩
  | .hbm, ⟨52, _⟩ => ⟨S128x128, .i1⟩
  | .hbm, ⟨53, _⟩ => ⟨S128x128, .i1⟩
  | .hbm, ⟨54, _⟩ => ⟨S128x128x3, .f32⟩
  | .hbm, ⟨55, _⟩ => ⟨S_, .f32⟩
  | .hbm, ⟨56, _⟩ => ⟨S128x128, .f32⟩
  | .hbm, ⟨57, _⟩ => ⟨S_, .f32⟩
  | .hbm, ⟨58, _⟩ => ⟨S_, .f32⟩
  | .hbm, ⟨59, _⟩ => ⟨S128x128, .f32⟩
  | .hbm, ⟨60, _⟩ => ⟨S128x128, .f32⟩
  | .hbm, ⟨61, _⟩ => ⟨S128x128, .f32⟩
  | .hbm, ⟨62, _⟩ => ⟨S128x128, .f32⟩
  | .hbm, ⟨63, _⟩ => ⟨S128x1x3, .f32⟩
  | .hbm, ⟨64, _⟩ => ⟨S1x128x3, .f32⟩
  | .hbm, ⟨65, _⟩ => ⟨S128x128x3, .f32⟩
  | .hbm, ⟨66, _⟩ => ⟨S128x128x3, .f32⟩
  | .hbm, ⟨67, _⟩ => ⟨S128x128x3, .f32⟩
  | .hbm, ⟨68, _⟩ => ⟨S128x1, .i1⟩
  | .hbm, ⟨69, _⟩ => ⟨S1x128, .i1⟩
  | .hbm, ⟨70, _⟩ => ⟨S128x128, .i1⟩
  | .hbm, ⟨71, _⟩ => ⟨S128x128, .i1⟩
  | .hbm, ⟨72, _⟩ => ⟨S128x128, .i1⟩
  | .hbm, ⟨73, _⟩ => ⟨S128x128x3, .f32⟩
  | .hbm, ⟨74, _⟩ => ⟨S_, .f32⟩
  | .hbm, ⟨75, _⟩ => ⟨S128x128, .f32⟩
  | .hbm, ⟨76, _⟩ => ⟨S_, .f32⟩
  | .hbm, ⟨77, _⟩ => ⟨S_, .f32⟩
  | .hbm, ⟨78, _⟩ => ⟨S128x128, .f32⟩
  | .hbm, ⟨79, _⟩ => ⟨S128x128, .f32⟩
  | .hbm, ⟨80, _⟩ => ⟨S128x128, .f32⟩
  | .hbm, ⟨81, _⟩ => ⟨S128x128, .f32⟩
  | .hbm, ⟨82, _⟩ => ⟨S128x1, .i1⟩
  | .hbm, ⟨83, _⟩ => ⟨S1x128, .i1⟩
  | .hbm, ⟨84, _⟩ => ⟨S128x128, .i1⟩
  | .hbm, ⟨85, _⟩ => ⟨S128x128, .i1⟩
  | .hbm, ⟨86, _⟩ => ⟨S128x128, .i1⟩
  | .hbm, ⟨87, _⟩ => ⟨S128x128, .f32⟩
  | .hbm, ⟨88, _⟩ => ⟨S128x1, .i1⟩
  | .hbm, ⟨89, _⟩ => ⟨S1x128, .i1⟩
  | .hbm, ⟨90, _⟩ => ⟨S128x128, .i1⟩
  | .hbm, ⟨91, _⟩ => ⟨S128x128, .i1⟩
  | .hbm, ⟨92, _⟩ => ⟨S128x128, .i1⟩
  | .hbm, ⟨93, _⟩ => ⟨S128x128, .f32⟩
  | .hbm, ⟨94, _⟩ => ⟨S1x128x128, .f32⟩
  | .hbm, ⟨95, _⟩ => ⟨S1x128x128, .f32⟩
  | .hbm, ⟨96, _⟩ => ⟨S2x128x128, .f32⟩
  | .hbm, ⟨97, _⟩ => ⟨S1x128x128, .f32⟩
  | .hbm, ⟨98, _⟩ => ⟨S1x128x128, .f32⟩
  | .hbm, ⟨99, _⟩ => ⟨S2x128x128, .f32⟩
  | .hbm, ⟨100, _⟩ => ⟨S1x32x128x128, .f32⟩
  | .hbm, ⟨101, _⟩ => ⟨S1x32x128x128, .f32⟩
  | .hbm, ⟨102, _⟩ => ⟨S2x32x128x128, .f32⟩
  | .hbm, ⟨103, _⟩ => ⟨S1x32x128x128, .f32⟩
  | .hbm, ⟨104, _⟩ => ⟨S1x32x128x128, .f32⟩
  | .hbm, ⟨105, _⟩ => ⟨S2x32x128x128, .f32⟩
  | .hbm, ⟨106, _⟩ => ⟨S1x128x128, .f32⟩
  | .hbm, ⟨107, _⟩ => ⟨S1x128x128, .f32⟩
  | .hbm, ⟨108, _⟩ => ⟨S2x128x128, .f32⟩
  | .hbm, ⟨109, _⟩ => ⟨S128x128, .i32⟩
  | .hbm, ⟨110, _⟩ => ⟨S128x128, .i32⟩
  | .hbm, ⟨111, _⟩ => ⟨S_, .i32⟩
  | .hbm, ⟨112, _⟩ => ⟨S128x128, .i32⟩
  | .hbm, ⟨113, _⟩ => ⟨S128x128, .i32⟩
  | .hbm, ⟨114, _⟩ => ⟨S128x128, .i1⟩
  | .hbm, ⟨115, _⟩ => ⟨S128x128, .f32⟩
  | .hbm, ⟨116, _⟩ => ⟨S2x32x128x128, .f32⟩
  | .local _ .vmem, ⟨0, _⟩ => ⟨S1x128x128, .f32⟩
  | .local _ .vmem, ⟨1, _⟩ => ⟨S1x128x128, .f32⟩
  | .local _ .vmem, ⟨2, _⟩ => ⟨S1x128x128, .f32⟩
  | .local _ .vmem, ⟨3, _⟩ => ⟨S1x128x128, .f32⟩
  | .local _ .vmem, ⟨4, _⟩ => ⟨S1x1x128x128, .f32⟩
  | .local _ .vmem, ⟨5, _⟩ => ⟨S1x1x128x128, .f32⟩
  | .local _ .vmem, ⟨6, _⟩ => ⟨S1x1x128x128, .f32⟩
  | .local _ .vmem, ⟨7, _⟩ => ⟨S1x1x128x128, .f32⟩
  | .local _ .vmem, ⟨8, _⟩ => ⟨S1x128x128, .f32⟩
  | .local _ .vmem, ⟨9, _⟩ => ⟨S1x128x128, .f32⟩
  | .local _ .vmem, ⟨10, _⟩ => ⟨S128x128, .f32⟩
  | .local _ .vmem, ⟨11, _⟩ => ⟨S1x1x128x128, .f32⟩
  | .local _ .vmem, ⟨12, _⟩ => ⟨S1x1x128x128, .f32⟩
  | _, _ => ⟨S128x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_2 : Ref sig .tc := ⟨.hbm, 55, rfl⟩
abbrev main_v41 : Ref sig .tc := ⟨.hbm, 56, rfl⟩
abbrev main_cst_3 : Ref sig .tc := ⟨.hbm, 57, rfl⟩
abbrev main_call0_v0 : Ref sig .tc := ⟨.hbm, 58, rfl⟩
abbrev main_call0_v1 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_cst_4 : Ref sig .tc := ⟨.hbm, 74, rfl⟩
abbrev main_v56 : Ref sig .tc := ⟨.hbm, 75, rfl⟩
abbrev main_cst_5 : Ref sig .tc := ⟨.hbm, 76, rfl⟩
abbrev main_call1_v0 : Ref sig .tc := ⟨.hbm, 77, rfl⟩
abbrev main_call1_v1 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_c : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  bcast_S128_S128x1_0 : S128.BroadcastsInDim S128x1 (![0] : Fin 1 → Fin S128x1.rank)
  bcast_S128x1_S128x3_0_1 : S128x1.BroadcastsInDim S128x3 (![0, 1] : Fin 2 → Fin S128x3.rank)
  reducesTo_S128x3_S3_d0 : S128x3.ReducesTo [0] S3
  h_S_ : 0 < S_.numel
  bcast_S3_S1x3_1 : S3.BroadcastsInDim S1x3 (![1] : Fin 1 → Fin S1x3.rank)
  reducesTo_S128x1_S1_d0 : S128x1.ReducesTo [0] S1
  bcast_S1_S1x1_1 : S1.BroadcastsInDim S1x1 (![1] : Fin 1 → Fin S1x1.rank)
  bcast_S_S1x1 : S_.BroadcastsInDim S1x1 (![] : Fin 0 → Fin S1x1.rank)
  bcast_S1x1_S1x3_0_1 : S1x1.BroadcastsInDim S1x3 (![0, 1] : Fin 2 → Fin S1x3.rank)
  bcast_S1x3_S128x3_0_1 : S1x3.BroadcastsInDim S128x3 (![0, 1] : Fin 2 → Fin S128x3.rank)
  concatenates_S128x1_S128x3_S128x4_d1 : Shape.Concatenates [S128x1, S128x3] S128x4 1
  bcast_S128x1_S128x4_0_1 : S128x1.BroadcastsInDim S128x4 (![0, 1] : Fin 2 → Fin S128x4.rank)
  transposes_S128x4096_S4096x128_1_0 : S128x4096.Transposes [1, 0] S4096x128
  shapeCasts_S4096x128_S32x128x128 : S4096x128.ShapeCasts S32x128x128
  bcast_S128x3_S128x1x3_0_2 : S128x3.BroadcastsInDim S128x1x3 (![0, 2] : Fin 2 → Fin S128x1x3.rank)
  bcast_S128x3_S1x128x3_1_2 : S128x3.BroadcastsInDim S1x128x3 (![1, 2] : Fin 2 → Fin S1x128x3.rank)
  bcast_S128x1x3_S128x128x3_0_1_2 : S128x1x3.BroadcastsInDim S128x128x3 (![0, 1, 2] : Fin 3 → Fin S128x128x3.rank)
  bcast_S1x128x3_S128x128x3_0_1_2 : S1x128x3.BroadcastsInDim S128x128x3 (![0, 1, 2] : Fin 3 → Fin S128x128x3.rank)
  bcast_S128_S1x128_1 : S128.BroadcastsInDim S1x128 (![1] : Fin 1 → Fin S1x128.rank)
  bcast_S128x1_S128x128_0_1 : S128x1.BroadcastsInDim S128x128 (![0, 1] : Fin 2 → Fin S128x128.rank)
  bcast_S1x128_S128x128_0_1 : S1x128.BroadcastsInDim S128x128 (![0, 1] : Fin 2 → Fin S128x128.rank)
  reducesTo_S128x128x3_S128x128_d2 : S128x128x3.ReducesTo [2] S128x128
  bcast_S_S128x128 : S_.BroadcastsInDim S128x128 (![] : Fin 0 → Fin S128x128.rank)
  bcast_S128x128_S1x128x128_1_2 : S128x128.BroadcastsInDim S1x128x128 (![1, 2] : Fin 2 → Fin S1x128x128.rank)
  concatenates_S1x128x128_S1x128x128_S2x128x128_d0 : Shape.Concatenates [S1x128x128, S1x128x128] S2x128x128 0
  bcast_S32x128x128_S1x32x128x128_1_2_3 : S32x128x128.BroadcastsInDim S1x32x128x128 (![1, 2, 3] : Fin 3 → Fin S1x32x128x128.rank)
  concatenates_S1x32x128x128_S1x32x128x128_S2x32x128x128_d0 : Shape.Concatenates [S1x32x128x128, S1x32x128x128] S2x32x128x128 0
  inb_S1x128x128_S1x128x128_0_0_0 : ∀ a, (![0, 0, 0] : Fin 3 → Nat) a + S1x128x128.size a ≤ S1x128x128.size a
  h_S1x128x128 : 0 < S1x128x128.numel
  shapeCasts_S1x128x128_S128x128 : S1x128x128.ShapeCasts S128x128
  inb_S1x1x128x128_S1x1x128x128_0_0_0_0 : ∀ a, (![0, 0, 0, 0] : Fin 4 → Nat) a + S1x1x128x128.size a ≤ S1x1x128x128.size a
  h_S1x1x128x128 : 0 < S1x1x128x128.numel
  shapeCasts_S1x1x128x128_S128x128 : S1x1x128x128.ShapeCasts S128x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  shapeCasts_S128x128_S128x1x128 : S128x128.ShapeCasts S128x1x128
  shapeCasts_S128x128_S1x128x128 : S128x128.ShapeCasts S1x128x128
  broadcasts_S128x1x128_S128x128x128 : S128x1x128.Broadcasts S128x128x128
  broadcasts_S1x128x128_S128x128x128 : S1x128x128.Broadcasts S128x128x128
  reduces_S128x128x128_S128x128 : S128x128x128.Reduces [2] S128x128
  shapeCasts_S128x128_S1x1x128x128 : S128x128.ShapeCasts S1x1x128x128
  dot_S128x4_S4x4096_S128x4096_1_0_0_1_n_n_wf : DotDims.WF S128x4 S4x4096 S128x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x128.size a ≤ S2x128x128.size a
  hwx0_0 : ∀ i : grid0.Coords, EltTy.bits .f32 = 32 ∨ (Rect.block (s := S2x128x128) S1x128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x128.size a ≤ S2x128x128.size a
  hwx0_1 : ∀ i : grid0.Coords, EltTy.bits .f32 = 32 ∨ (Rect.block (s := S2x128x128) S1x128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x128x128.size a ≤ S2x32x128x128.size a
  hwx0_2 : ∀ i : grid0.Coords, EltTy.bits .f32 = 32 ∨ (Rect.block (s := S2x32x128x128) S1x1x128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x128x128.size a ≤ S2x32x128x128.size a
  hwx0_3 : ∀ i : grid0.Coords, EltTy.bits .f32 = 32 ∨ (Rect.block (s := S2x32x128x128) S1x1x128x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x128x128.size a ≤ S2x128x128.size a
  hwx0_4 : ∀ i : grid0.Coords, EltTy.bits .f32 = 32 ∨ (Rect.block (s := S2x128x128) S1x128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x128x128.size a ≤ S2x32x128x128.size a
  hwx0_6 : ∀ i : grid0.Coords, EltTy.bits .f32 = 32 ∨ (Rect.block (s := S2x32x128x128) S1x1x128x128.size (cc0_transform_6 i) (hinb0_6 i)).WholeWords (EltTy.packing .f32)

variable [Facts₀]

def dot_S128x4_S4x4096_S128x4096_1_0_0_1_n_n : DotDims S128x4 S4x4096 S128x4096 where
  lhsContracting := [1]
  rhsContracting := [0]
  lhsNonContracting := [0]
  rhsNonContracting := [1]
  lhsBatch := []
  rhsBatch := []
  wf := dot_S128x4_S4x4096_S128x4096_1_0_0_1_n_n_wf

abbrev win0_0 : Pipeline.Window sig grid0 :=
  Pipeline.Window.ofSpec (Memref.whole main_v74) S1x128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v77) S1x128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v80) S1x1x128x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v83) S1x1x128x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v86) S1x128x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v92) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v93) S1x1x128x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S128x3 : Shape := ⟨2, ![128, 3]⟩
abbrev S128 : Shape := ⟨1, ![128]⟩
abbrev S4x4096 : Shape := ⟨2, ![4, 4096]⟩
abbrev S128x1 : Shape := ⟨2, ![128, 1]⟩
abbrev S_ : Shape := ⟨0, ![]⟩
abbrev S3 : Shape := ⟨1, ![3]⟩
abbrev S1x3 : Shape := ⟨2, ![1, 3]⟩
abbrev S1 : Shape := ⟨1, ![1]⟩
abbrev S1x1 : Shape := ⟨2, ![1, 1]⟩
abbrev S128x4 : Shape := ⟨2, ![128, 4]⟩
abbrev S128x4096 : Shape := ⟨2, ![128, 4096]⟩
abbrev S4096x128 : Shape := ⟨2, ![4096, 128]⟩
abbrev S128x1x3 : Shape := ⟨3, ![128, 1, 3]⟩
abbrev S1x128x3 : Shape := ⟨3, ![1, 128, 3]⟩
abbrev S128x128x3 : Shape := ⟨3, ![128, 128, 3]⟩
abbrev S1x128 : Shape := ⟨2, ![1, 128]⟩
abbrev S128x128 : Shape := ⟨2, ![128, 128]⟩
abbrev S128x1x128 : Shape := ⟨3, ![128, 1, 128]⟩
abbrev S1x4096x128 : Shape := ⟨3, ![1, 4096, 128]⟩
abbrev S128x4096x128 : Shape := ⟨3, ![128, 4096, 128]⟩
abbrev S128x32x128 : Shape := ⟨3, ![128, 32, 128]⟩
abbrev S32x128x128 : Shape := ⟨3, ![32, 128, 128]⟩
abbrev S1x32x128x128 : Shape := ⟨4, ![1, 32, 128, 128]⟩
abbrev S2x32x128x128 : Shape := ⟨4, ![2, 32, 128, 128]⟩

abbrev nBuf : Space → Nat
  | .hbm => 151
  | .vmem => 0
  | .smem => 0
  | _ => 0

abbrev hbmTy0_0 (i : Nat) : BufTy := match i % 128 with
  | 0 => ⟨S128x3, .f32⟩
  | 1 => ⟨S128x3, .f32⟩
  | 2 => ⟨S128x3, .f32⟩
  | 3 => ⟨S128, .f32⟩
  | 4 => ⟨S4x4096, .f32⟩
  | 5 => ⟨S4x4096, .f32⟩
  | 6 => ⟨S4x4096, .f32⟩
  | 7 => ⟨S4x4096, .f32⟩
  | 8 => ⟨S128, .i1⟩
  | 9 => ⟨S128, .i1⟩
  | 10 => ⟨S128, .i1⟩
  | 11 => ⟨S128x1, .i1⟩
  | 12 => ⟨S128x1, .f32⟩
  | 13 => ⟨S128x3, .f32⟩
  | 14 => ⟨S128x3, .f32⟩
  | 15 => ⟨S_, .f32⟩
  | 16 => ⟨S3, .f32⟩
  | 17 => ⟨S1x3, .f32⟩
  | 18 => ⟨S_, .f32⟩
  | 19 => ⟨S1, .f32⟩
  | 20 => ⟨S1x1, .f32⟩
  | 21 => ⟨S_, .f32⟩
  | 22 => ⟨S1x1, .f32⟩
  | 23 => ⟨S1x1, .f32⟩
  | 24 => ⟨S1x3, .f32⟩
  | 25 => ⟨S1x3, .f32⟩
  | 26 => ⟨S128x3, .f32⟩
  | 27 => ⟨S128x3, .f32⟩
  | 28 => ⟨S128x1, .f32⟩
  | 29 => ⟨S128x4, .f32⟩
  | 30 => ⟨S128x4, .f32⟩
  | 31 => ⟨S128x4, .f32⟩
  | 32 => ⟨S128x4096, .f32⟩
  | 33 => ⟨S4096x128, .f32⟩
  | 34 => ⟨S128x4096, .f32⟩
  | 35 => ⟨S4096x128, .f32⟩
  | 36 => ⟨S128x1x3, .f32⟩
  | 37 => ⟨S1x128x3, .f32⟩
  | 38 => ⟨S128x128x3, .f32⟩
  | 39 => ⟨S128x128x3, .f32⟩
  | 40 => ⟨S128x128x3, .f32⟩
  | 41 => ⟨S128x1, .i1⟩
  | 42 => ⟨S1x128, .i1⟩
  | 43 => ⟨S128x128, .i1⟩
  | 44 => ⟨S128x128, .i1⟩
  | 45 => ⟨S128x128, .i1⟩
  | 46 => ⟨S128x128x3, .f32⟩
  | 47 => ⟨S_, .f32⟩
  | 48 => ⟨S128x128, .f32⟩
  | 49 => ⟨S_, .f32⟩
  | 50 => ⟨S_, .f32⟩
  | 51 => ⟨S128x128, .f32⟩
  | 52 => ⟨S128x128, .f32⟩
  | 53 => ⟨S128x128, .f32⟩
  | 54 => ⟨S128x1x128, .i1⟩
  | 55 => ⟨S128x1x128, .f32⟩
  | 56 => ⟨S1x4096x128, .f32⟩
  | 57 => ⟨S128x4096x128, .f32⟩
  | 58 => ⟨S128x4096x128, .f32⟩
  | 59 => ⟨S128x4096x128, .f32⟩
  | 60 => ⟨S128x4096x128, .f32⟩
  | 61 => ⟨S128x4096x128, .f32⟩
  | 62 => ⟨S128x4096x128, .f32⟩
  | 63 => ⟨S_, .f32⟩
  | 64 => ⟨S_, .f32⟩
  | 65 => ⟨S128x4096x128, .i1⟩
  | 66 => ⟨S128x4096x128, .f32⟩
  | 67 => ⟨S128x4096x128, .f32⟩
  | 68 => ⟨S1x4096x128, .f32⟩
  | 69 => ⟨S128x4096x128, .f32⟩
  | 70 => ⟨S128x4096x128, .f32⟩
  | 71 => ⟨S_, .f32⟩
  | 72 => ⟨S128x4096, .f32⟩
  | 73 => ⟨S128x32x128, .f32⟩
  | 74 => ⟨S32x128x128, .f32⟩
  | 75 => ⟨S128x1, .i1⟩
  | 76 => ⟨S1x128, .i1⟩
  | 77 => ⟨S128x128, .i1⟩
  | 78 => ⟨S128x128, .i1⟩
  | 79 => ⟨S128x128, .i1⟩
  | 80 => ⟨S128x128, .i32⟩
  | 81 => ⟨S128x128, .i32⟩
  | 82 => ⟨S_, .i32⟩
  | 83 => ⟨S128x128, .i32⟩
  | 84 => ⟨S128x128, .i32⟩
  | 85 => ⟨S128x128, .i1⟩
  | 86 => ⟨S128x128, .f32⟩
  | 87 => ⟨S32x128x128, .i1⟩
  | 88 => ⟨S32x128x128, .f32⟩
  | 89 => ⟨S32x128x128, .f32⟩
  | 90 => ⟨S128x4096, .f32⟩
  | 91 => ⟨S4096x128, .f32⟩
  | 92 => ⟨S128x4096, .f32⟩
  | 93 => ⟨S4096x128, .f32⟩
  | 94 => ⟨S128x1x3, .f32⟩
  | 95 => ⟨S1x128x3, .f32⟩
  | 96 => ⟨S128x128x3, .f32⟩
  | 97 => ⟨S128x128x3, .f32⟩
  | 98 => ⟨S128x128x3, .f32⟩
  | 99 => ⟨S128x1, .i1⟩
  | 100 => ⟨S1x128, .i1⟩
  | 101 => ⟨S128x128, .i1⟩
  | 102 => ⟨S128x128, .i1⟩
  | 103 => ⟨S128x128, .i1⟩
  | 104 => ⟨S128x128x3, .f32⟩
  | 105 => ⟨S_, .f32⟩
  | 106 => ⟨S128x128, .f32⟩
  | 107 => ⟨S_, .f32⟩
  | 108 => ⟨S_, .f32⟩
  | 109 => ⟨S128x128, .f32⟩
  | 110 => ⟨S128x128, .f32⟩
  | 111 => ⟨S128x128, .f32⟩
  | 112 => ⟨S128x1x128, .i1⟩
  | 113 => ⟨S128x1x128, .f32⟩
  | 114 => ⟨S1x4096x128, .f32⟩
  | 115 => ⟨S128x4096x128, .f32⟩
  | 116 => ⟨S128x4096x128, .f32⟩
  | 117 => ⟨S128x4096x128, .f32⟩
  | 118 => ⟨S128x4096x128, .f32⟩
  | 119 => ⟨S128x4096x128, .f32⟩
  | 120 => ⟨S128x4096x128, .f32⟩
  | 121 => ⟨S_, .f32⟩
  | 122 => ⟨S_, .f32⟩
  | 123 => ⟨S128x4096x128, .i1⟩
  | 124 => ⟨S128x4096x128, .f32⟩
  | 125 => ⟨S128x4096x128, .f32⟩
  | 126 => ⟨S1x4096x128, .f32⟩
  | 127 => ⟨S128x4096x128, .f32⟩
  | _ => ⟨S128x3, .f32⟩

abbrev hbmTy0_1 (i : Nat) : BufTy := match i % 128 with
  | 0 => ⟨S128x4096x128, .f32⟩
  | 1 => ⟨S_, .f32⟩
  | 2 => ⟨S128x4096, .f32⟩
  | 3 => ⟨S128x32x128, .f32⟩
  | 4 => ⟨S32x128x128, .f32⟩
  | 5 => ⟨S128x1, .i1⟩
  | 6 => ⟨S1x128, .i1⟩
  | 7 => ⟨S128x128, .i1⟩
  | 8 => ⟨S128x128, .i1⟩
  | 9 => ⟨S128x128, .i1⟩
  | 10 => ⟨S128x128, .i32⟩
  | 11 => ⟨S128x128, .i32⟩
  | 12 => ⟨S_, .i32⟩
  | 13 => ⟨S128x128, .i32⟩
  | 14 => ⟨S128x128, .i32⟩
  | 15 => ⟨S128x128, .i1⟩
  | 16 => ⟨S128x128, .f32⟩
  | 17 => ⟨S32x128x128, .i1⟩
  | 18 => ⟨S32x128x128, .f32⟩
  | 19 => ⟨S32x128x128, .f32⟩
  | 20 => ⟨S1x32x128x128, .f32⟩
  | 21 => ⟨S1x32x128x128, .f32⟩
  | 22 => ⟨S2x32x128x128, .f32⟩
  | _ => ⟨S128x3, .f32⟩

abbrev hbmTy (i : Nat) : BufTy := match i / 128 with
  | 0 => hbmTy0_0 i
  | 1 => hbmTy0_1 i
  | _ => ⟨S128x3, .f32⟩

abbrev bufTy : (tb : Table) → Fin (tcTables nBuf tb) → BufTy
  | .hbm, ⟨i, _⟩ => hbmTy i
  | _, _ => ⟨S128x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_2 : Ref sig .tc := ⟨.hbm, 47, rfl⟩
abbrev main_v33 : Ref sig .tc := ⟨.hbm, 48, rfl⟩
abbrev main_cst_3 : Ref sig .tc := ⟨.hbm, 49, rfl⟩
abbrev main_call0_v0 : Ref sig .tc := ⟨.hbm, 50, rfl⟩
abbrev main_call0_v1 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_4 : Ref sig .tc := ⟨.hbm, 63, rfl⟩
abbrev main_call1_v0 : Ref sig .tc := ⟨.hbm, 64, rfl⟩
abbrev main_call1_v1 : Ref sig .tc := ⟨.hbm, 65, rfl⟩
abbrev main_call1_v2 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_cst_5 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_c : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_call2_v0 : Ref sig .tc := ⟨.hbm, 87, rfl⟩
abbrev main_call2_v1 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_cst_6 : Ref sig .tc := ⟨.hbm, 105, rfl⟩
abbrev main_v79 : Ref sig .tc := ⟨.hbm, 106, rfl⟩
abbrev main_cst_7 : Ref sig .tc := ⟨.hbm, 107, rfl⟩
abbrev main_call3_v0 : Ref sig .tc := ⟨.hbm, 108, rfl⟩
abbrev main_call3_v1 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_cst_8 : Ref sig .tc := ⟨.hbm, 121, rfl⟩
abbrev main_call4_v0 : Ref sig .tc := ⟨.hbm, 122, rfl⟩
abbrev main_call4_v1 : Ref sig .tc := ⟨.hbm, 123, rfl⟩
abbrev main_call4_v2 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_cst_9 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_c_10 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_call5_v0 : Ref sig .tc := ⟨.hbm, 145, rfl⟩
abbrev main_call5_v1 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩

abbrev nD : Nat := 1
abbrev τ : Topo := Topo.v7x

variable {F : FTy → Type} [FloatOps F]

class Facts₀ : Prop where
  bcast_S128_S128x1_0 : S128.BroadcastsInDim S128x1 (![0] : Fin 1 → Fin S128x1.rank)
  bcast_S128x1_S128x3_0_1 : S128x1.BroadcastsInDim S128x3 (![0, 1] : Fin 2 → Fin S128x3.rank)
  reducesTo_S128x3_S3_d0 : S128x3.ReducesTo [0] S3
  h_S_ : 0 < S_.numel
  bcast_S3_S1x3_1 : S3.BroadcastsInDim S1x3 (![1] : Fin 1 → Fin S1x3.rank)
  reducesTo_S128x1_S1_d0 : S128x1.ReducesTo [0] S1
  bcast_S1_S1x1_1 : S1.BroadcastsInDim S1x1 (![1] : Fin 1 → Fin S1x1.rank)
  bcast_S_S1x1 : S_.BroadcastsInDim S1x1 (![] : Fin 0 → Fin S1x1.rank)
  bcast_S1x1_S1x3_0_1 : S1x1.BroadcastsInDim S1x3 (![0, 1] : Fin 2 → Fin S1x3.rank)
  bcast_S1x3_S128x3_0_1 : S1x3.BroadcastsInDim S128x3 (![0, 1] : Fin 2 → Fin S128x3.rank)
  concatenates_S128x1_S128x3_S128x4_d1 : Shape.Concatenates [S128x1, S128x3] S128x4 1
  bcast_S128x1_S128x4_0_1 : S128x1.BroadcastsInDim S128x4 (![0, 1] : Fin 2 → Fin S128x4.rank)
  transposes_S128x4096_S4096x128_1_0 : S128x4096.Transposes [1, 0] S4096x128
  bcast_S128x3_S128x1x3_0_2 : S128x3.BroadcastsInDim S128x1x3 (![0, 2] : Fin 2 → Fin S128x1x3.rank)
  bcast_S128x3_S1x128x3_1_2 : S128x3.BroadcastsInDim S1x128x3 (![1, 2] : Fin 2 → Fin S1x128x3.rank)
  bcast_S128x1x3_S128x128x3_0_1_2 : S128x1x3.BroadcastsInDim S128x128x3 (![0, 1, 2] : Fin 3 → Fin S128x128x3.rank)
  bcast_S1x128x3_S128x128x3_0_1_2 : S1x128x3.BroadcastsInDim S128x128x3 (![0, 1, 2] : Fin 3 → Fin S128x128x3.rank)
  bcast_S128_S1x128_1 : S128.BroadcastsInDim S1x128 (![1] : Fin 1 → Fin S1x128.rank)
  bcast_S128x1_S128x128_0_1 : S128x1.BroadcastsInDim S128x128 (![0, 1] : Fin 2 → Fin S128x128.rank)
  bcast_S1x128_S128x128_0_1 : S1x128.BroadcastsInDim S128x128 (![0, 1] : Fin 2 → Fin S128x128.rank)
  reducesTo_S128x128x3_S128x128_d2 : S128x128x3.ReducesTo [2] S128x128
  bcast_S_S128x128 : S_.BroadcastsInDim S128x128 (![] : Fin 0 → Fin S128x128.rank)
  bcast_S128x128_S128x1x128_0_2 : S128x128.BroadcastsInDim S128x1x128 (![0, 2] : Fin 2 → Fin S128x1x128.rank)
  bcast_S4096x128_S1x4096x128_1_2 : S4096x128.BroadcastsInDim S1x4096x128 (![1, 2] : Fin 2 → Fin S1x4096x128.rank)
  bcast_S128x1x128_S128x4096x128_0_1_2 : S128x1x128.BroadcastsInDim S128x4096x128 (![0, 1, 2] : Fin 3 → Fin S128x4096x128.rank)
  bcast_S1x4096x128_S128x4096x128_0_1_2 : S1x4096x128.BroadcastsInDim S128x4096x128 (![0, 1, 2] : Fin 3 → Fin S128x4096x128.rank)
  bcast_S_S128x4096x128 : S_.BroadcastsInDim S128x4096x128 (![] : Fin 0 → Fin S128x4096x128.rank)
  reducesTo_S128x4096x128_S128x4096_d2 : S128x4096x128.ReducesTo [2] S128x4096
  shapeCasts_S128x4096_S128x32x128 : S128x4096.ShapeCasts S128x32x128
  transposes_S128x32x128_S32x128x128_1_0_2 : S128x32x128.Transposes [1, 0, 2] S32x128x128
  bcast_S128x128_S32x128x128_1_2 : S128x128.BroadcastsInDim S32x128x128 (![1, 2] : Fin 2 → Fin S32x128x128.rank)
  bcast_S32x128x128_S1x32x128x128_1_2_3 : S32x128x128.BroadcastsInDim S1x32x128x128 (![1, 2, 3] : Fin 3 → Fin S1x32x128x128.rank)
  concatenates_S1x32x128x128_S1x32x128x128_S2x32x128x128_d0 : Shape.Concatenates [S1x32x128x128, S1x32x128x128] S2x32x128x128 0
  dot_S128x4_S4x4096_S128x4096_1_0_0_1_n_n_wf : DotDims.WF S128x4 S4x4096 S128x4096 [1] [0] [0] [1] [] []

variable [Facts₀]

def dot_S128x4_S4x4096_S128x4096_1_0_0_1_n_n : DotDims S128x4 S4x4096 S128x4096 where
  lhsContracting := [1]
  rhsContracting := [0]
  lhsNonContracting := [0]
  rhsNonContracting := [1]
  lhsBatch := []
  rhsBatch := []
  wf := dot_S128x4_S4x4096_S128x4096_1_0_0_1_n_n_wf

class Facts : Prop extends Facts₀ where

variable [Facts]
-- ==== Proof.Body.lean ====
/-
  The kernel body, read entry by entry.

  At one grid point the body holds six blocks: sm [1, 128, 128] (electron i, orbital j), pt and zt [1, 1, 128, 128]
  (orbital j, nucleus k), dist and dmask [1, 128, 128] (electron i, nucleus k), eye [128, 128]. It broadcasts dist and
  dmask along a middle orbital axis and zt and pt along a leading electron axis to [128, 128, 128], forms
  pt · (exp(0 − |dist · zt|) · dmask) there, sums the last (nucleus) axis, and selects between that sum and eye by
  "sm differs from 0". So entry (i, j) of the block it writes is that selection of Σ_k pt(j, k) · (exp(0 − |dist(i, k) ·
  zt(j, k)|) · dmask(i, k)).
-/
import proofs.«155584_j21895743275104_2_alg».proof.Proof.Gen.KernelIdeal.Value
import Idealize.ShloMosaic.PureOps.Ideal.Laws
import Idealize.ShloMosaic.Lib.ValueIdx
import Idealize.ShloMosaic.Lib.Pipeline.Value

noncomputable section

namespace Cert.Envelope

open Idealize.ShloMosaic Idealize.ShloMosaic.ValueIdx
open Cert.KernelIdeal Cert.KernelIdeal.Gen Cert.KernelIdeal.Value

/-- An (orbital, nucleus) block broadcast along a new leading electron axis: (i, j, k) reads (j, k). -/
theorem alongElectrons (P : Vec Ideal S1x1x128x128 .f32) (i j k : Fin 128) :
    broadcastTo S128x128x128 (shapeCast S1x128x128 (shapeCast S128x128 P shapeCasts_S1x1x128x128_S128x128)
      shapeCasts_S128x128_S1x128x128) broadcasts_S1x128x128_S128x128x128 (ix3 i j k) = P (ix4 (0 : Fin 1) (0 : Fin 1) j k) := by
  refine (broadcastTo_apply _ broadcasts_S1x128x128_S128x128x128 (ix3 i j k) (ix3 (0 : Fin 1) j k) (fun a => by
    match a with
    | ⟨0, _⟩ => show (0 : Nat) = if (1 : Nat) = 1 then 0 else i.val; rw [if_pos rfl]
    | ⟨1, _⟩ => show j.val = if (128 : Nat) = 1 then 0 else j.val; rw [if_neg (by decide)]
    | ⟨2, _⟩ => show k.val = if (128 : Nat) = 1 then 0 else k.val; rw [if_neg (by decide)])).trans ?_
  refine (shapeCast_apply _ shapeCasts_S128x128_S1x128x128 (ix3 (0 : Fin 1) j k) (ix2 j k) (by
    rw [Shape.rowMajor_val_two, Shape.rowMajor_val_three]
    show j.val * 128 + k.val = (0 * 128 + j.val) * 128 + k.val; omega)).trans ?_
  exact shapeCast_apply P shapeCasts_S1x1x128x128_S128x128 (ix2 j k) (ix4 (0 : Fin 1) (0 : Fin 1) j k) (by
    rw [Shape.rowMajor_val_four, Shape.rowMajor_val_two]
    show ((0 * 1 + 0) * 128 + j.val) * 128 + k.val = j.val * 128 + k.val; omega)

/-- An (electron, nucleus) block broadcast along a new middle orbital axis: (i, j, k) reads (i, k). -/
theorem alongOrbitals (P : Vec Ideal S1x128x128 .f32) (i j k : Fin 128) :
    broadcastTo S128x128x128 (shapeCast S128x1x128 (shapeCast S128x128 P shapeCasts_S1x128x128_S128x128)
      shapeCasts_S128x128_S128x1x128) broadcasts_S128x1x128_S128x128x128 (ix3 i j k) = P (ix3 (0 : Fin 1) i k) := by
  refine (broadcastTo_apply _ broadcasts_S128x1x128_S128x128x128 (ix3 i j k) (ix3 i (0 : Fin 1) k) (fun a => by
    match a with
    | ⟨0, _⟩ => show i.val = if (128 : Nat) = 1 then 0 else i.val; rw [if_neg (by decide)]
    | ⟨1, _⟩ => show (0 : Nat) = if (1 : Nat) = 1 then 0 else j.val; rw [if_pos rfl]
    | ⟨2, _⟩ => show k.val = if (128 : Nat) = 1 then 0 else k.val; rw [if_neg (by decide)])).trans ?_
  refine (shapeCast_apply _ shapeCasts_S128x128_S128x1x128 (ix3 i (0 : Fin 1) k) (ix2 i k) (by
    rw [Shape.rowMajor_val_two, Shape.rowMajor_val_three]
    show i.val * 128 + k.val = (i.val * 1 + 0) * 128 + k.val; omega)).trans ?_
  exact shapeCast_apply P shapeCasts_S1x128x128_S128x128 (ix2 i k) (ix3 (0 : Fin 1) i k) (by
    rw [Shape.rowMajor_val_three, Shape.rowMajor_val_two]
    show (0 * 128 + i.val) * 128 + k.val = i.val * 128 + k.val; omega)

/-- What the body leaves at entry (i, j) of its output block, from its six input blocks. -/
def bodyEntry (sm : Vec Ideal S1x128x128 .f32) (pt : Vec Ideal S1x1x128x128 .f32) (dist : Vec Ideal S1x128x128 .f32)
    (zt : Vec Ideal S1x1x128x128 .f32) (dmask : Vec Ideal S1x128x128 .f32) (eye : Vec Ideal S128x128 .f32) (i j : Fin 128) : EReal :=
  Scalar.select (FloatOps.cmpf (F := Ideal) (φ := .f32) .one (sm (ix3 (0 : Fin 1) i j)) (FloatOps.ofBits (F := Ideal) .f32 0x00000000#32))
    (∑ k : Fin 128, FloatOps.mulf (F := Ideal) (φ := .f32) (pt (ix4 (0 : Fin 1) (0 : Fin 1) j k))
      (FloatOps.mulf (F := Ideal) (φ := .f32)
        (FloatOps.exp (F := Ideal) (φ := .f32) (FloatOps.subf (F := Ideal) (φ := .f32) (FloatOps.ofBits (F := Ideal) .f32 0x00000000#32)
          (FloatOps.absf (F := Ideal) (φ := .f32) (FloatOps.mulf (F := Ideal) (φ := .f32) (dist (ix3 (0 : Fin 1) i k)) (zt (ix4 (0 : Fin 1) (0 : Fin 1) j k))))))
        (dmask (ix3 (0 : Fin 1) i k))))
    (eye (ix2 i j))

/-- The generated block function at (0, 0, i, j) is `bodyEntry`. -/
theorem body_at (sm : Vec Ideal S1x128x128 .f32) (pt : Vec Ideal S1x1x128x128 .f32) (dist : Vec Ideal S1x128x128 .f32)
    (zt : Vec Ideal S1x1x128x128 .f32) (dmask : Vec Ideal S1x128x128 .f32) (eye : Vec Ideal S128x128 .f32) (i j : Fin 128) :
    E6 sm pt dist zt dmask eye (ix4 (0 : Fin 1) (0 : Fin 1) i j) = bodyEntry sm pt dist zt dmask eye i j := by
  have e0 : ix6_0 (ix4 (0 : Fin 1) (0 : Fin 1) i j) = ix3 (0 : Fin 1) i j :=
    funext fun a => by match a with | ⟨0, _⟩ => rfl | ⟨1, _⟩ => rfl | ⟨2, _⟩ => rfl
  have e1 : ix6_1 (ix4 (0 : Fin 1) (0 : Fin 1) i j) = ix2 i j :=
    funext fun a => by match a with | ⟨0, _⟩ => rfl | ⟨1, _⟩ => rfl
  have e2 : ix6_2 (ix4 (0 : Fin 1) (0 : Fin 1) i j) = ix2 i j :=
    funext fun a => by match a with | ⟨0, _⟩ => rfl | ⟨1, _⟩ => rfl
  unfold E6 bodyEntry
  rw [e0, e1, e2]
  refine congrArg (fun z => Scalar.select (FloatOps.cmpf (F := Ideal) (φ := .f32) .one (sm (ix3 (0 : Fin 1) i j))
    (FloatOps.ofBits (F := Ideal) .f32 0x00000000#32)) z (eye (ix2 i j))) ?_
  refine (Ideal.multiReduction_add_single _ 0x00000000#32 reduces_S128x128x128_S128x128 (.inl rfl) rfl (ix2 i j)).trans ?_
  show (∑ k : Fin 128, _) = _
  refine Finset.sum_congr rfl fun k _ => ?_
  have q : reduces_S128x128x128_S128x128.lift (ix2 i j) k = ix3 i j k :=
    funext fun a => Fin.ext (by match a with | ⟨0, _⟩ => rfl | ⟨1, _⟩ => rfl | ⟨2, _⟩ => rfl)
  rw [q]
  show FloatOps.mulf (F := Ideal) (φ := .f32) (broadcastTo S128x128x128 _ _ (ix3 i j k))
      (FloatOps.mulf (F := Ideal) (φ := .f32)
        (FloatOps.exp (F := Ideal) (φ := .f32) (FloatOps.subf (F := Ideal) (φ := .f32) _
          (FloatOps.absf (F := Ideal) (φ := .f32) (FloatOps.mulf (F := Ideal) (φ := .f32) (broadcastTo S128x128x128 _ _ (ix3 i j k)) (broadcastTo S128x128x128 _ _ (ix3 i j k))))))
        (broadcastTo S128x128x128 _ _ (ix3 i j k))) = _
  rw [alongElectrons pt i j k, alongOrbitals dist i j k, alongElectrons zt i j k, alongOrbitals dmask i j k]
  rfl

/-- The same entry written over the six whole arrays the region finds, for spin `s` and determinant `d`. -/
def kernelEntry (SM : (⟨3, ![2, 128, 128]⟩ : Shape).Idx → EReal) (PT : (⟨4, ![2, 32, 128, 128]⟩ : Shape).Idx → EReal)
    (DIST : (⟨3, ![2, 128, 128]⟩ : Shape).Idx → EReal) (ZT : (⟨4, ![2, 32, 128, 128]⟩ : Shape).Idx → EReal)
    (DM : (⟨3, ![2, 128, 128]⟩ : Shape).Idx → EReal) (EYE : (⟨2, ![128, 128]⟩ : Shape).Idx → EReal)
    (s : Fin 2) (d : Fin 32) (i j : Fin 128) : EReal :=
  Scalar.select (FloatOps.cmpf (F := Ideal) (φ := .f32) .one (SM (ix3 s i j)) (FloatOps.ofBits (F := Ideal) .f32 0x00000000#32))
    (∑ k : Fin 128, FloatOps.mulf (F := Ideal) (φ := .f32) (PT (ix4 s d j k))
      (FloatOps.mulf (F := Ideal) (φ := .f32)
        (FloatOps.exp (F := Ideal) (φ := .f32) (FloatOps.subf (F := Ideal) (φ := .f32) (FloatOps.ofBits (F := Ideal) .f32 0x00000000#32)
          (FloatOps.absf (F := Ideal) (φ := .f32) (FloatOps.mulf (F := Ideal) (φ := .f32) (DIST (ix3 s i k)) (ZT (ix4 s d j k))))))
        (DM (ix3 s i k))))
    (EYE (ix2 i j))

/-- The kernel's whole output array, from the six arrays: entry (s, d, i, j) is `kernelEntry … s d i j`. -/
def kernelArray (SM : (⟨3, ![2, 128, 128]⟩ : Shape).Idx → EReal) (PT : (⟨4, ![2, 32, 128, 128]⟩ : Shape).Idx → EReal)
    (DIST : (⟨3, ![2, 128, 128]⟩ : Shape).Idx → EReal) (ZT : (⟨4, ![2, 32, 128, 128]⟩ : Shape).Idx → EReal)
    (DM : (⟨3, ![2, 128, 128]⟩ : Shape).Idx → EReal) (EYE : (⟨2, ![128, 128]⟩ : Shape).Idx → EReal) :
    (⟨4, ![2, 32, 128, 128]⟩ : Shape).Idx → EReal := fun y =>
  kernelEntry SM PT DIST ZT DM EYE ⟨(y 0).val, (y 0).isLt⟩ ⟨(y 1).val, (y 1).isLt⟩ ⟨(y 2).val, (y 2).isLt⟩ ⟨(y 3).val, (y 3).isLt⟩

/-- If each block is its array read at spin `s` (and determinant `d`), the body's entry is the whole-array entry. -/
theorem bodyEntry_of_blocks (sm : Vec Ideal S1x128x128 .f32) (pt : Vec Ideal S1x1x128x128 .f32) (dist : Vec Ideal S1x128x128 .f32)
    (zt : Vec Ideal S1x1x128x128 .f32) (dmask : Vec Ideal S1x128x128 .f32) (eye : Vec Ideal S128x128 .f32)
    (SM : (⟨3, ![2, 128, 128]⟩ : Shape).Idx → EReal) (PT : (⟨4, ![2, 32, 128, 128]⟩ : Shape).Idx → EReal)
    (DIST : (⟨3, ![2, 128, 128]⟩ : Shape).Idx → EReal) (ZT : (⟨4, ![2, 32, 128, 128]⟩ : Shape).Idx → EReal)
    (DM : (⟨3, ![2, 128, 128]⟩ : Shape).Idx → EReal) (EYE : (⟨2, ![128, 128]⟩ : Shape).Idx → EReal)
    (s : Fin 2) (d : Fin 32)
    (hsm : ∀ i j : Fin 128, sm (ix3 (0 : Fin 1) i j) = SM (ix3 s i j))
    (hpt : ∀ j k : Fin 128, pt (ix4 (0 : Fin 1) (0 : Fin 1) j k) = PT (ix4 s d j k))
    (hdist : ∀ i k : Fin 128, dist (ix3 (0 : Fin 1) i k) = DIST (ix3 s i k))
    (hzt : ∀ j k : Fin 128, zt (ix4 (0 : Fin 1) (0 : Fin 1) j k) = ZT (ix4 s d j k))
    (hdm : ∀ i k : Fin 128, dmask (ix3 (0 : Fin 1) i k) = DM (ix3 s i k))
    (heye : ∀ i j : Fin 128, eye (ix2 i j) = EYE (ix2 i j)) (i j : Fin 128) :
    bodyEntry sm pt dist zt dmask eye i j = kernelEntry SM PT DIST ZT DM EYE s d i j := by
  unfold bodyEntry kernelEntry
  rw [hsm i j, heye i j]
  refine congrArg (fun z => Scalar.select (FloatOps.cmpf (F := Ideal) (φ := .f32) .one (SM (ix3 s i j))
    (FloatOps.ofBits (F := Ideal) .f32 0x00000000#32)) z (EYE (ix2 i j))) ?_
  refine Finset.sum_congr rfl fun k _ => ?_
  rw [hpt j k, hdist i k, hzt j k, hdm i k]

end Cert.Envelope

end
-- ==== Proof.BlockFacts.lean ====
/-
  Where the windows' blocks sit, and that the output's blocks tile the result.

  The grid has 64 points (spin s, determinant d). At a point the output window's block is rows (s, d) of the
  [2, 32, 128, 128] result; the distance, pair-mask and electron–orbital-mask windows sit at spin s of their
  [2, 128, 128] arrays, the exponent-factor and weight windows at (s, d) of their [2, 32, 128, 128] arrays, and the
  identity window is its whole array. Index (s, d, i, j) of the result lies in the block of the point at (s, d).
-/
import proofs.«155584_j21895743275104_2_alg».proof.Proof.Gen.KernelIdeal.Value
import proofs.«155584_j21895743275104_2_alg».proof.Proof.Body
import Idealize.ShloMosaic.Lib.Pipeline.Value

noncomputable section

namespace Cert.Envelope

open Idealize.ShloMosaic Idealize.ShloMosaic.TcCoe Idealize.SL.Sem Idealize.ShloMosaic.ValueIdx
open Idealize.ShloMosaic.Pipeline (Dat)
open Cert.KernelIdeal Cert.KernelIdeal.Facts₀ Cert.KernelIdeal.Gen Cert.KernelIdeal.Value

variable (m : (ℓ : Loc nD τ sig) → Buf (Elt Ideal) ℓ) (ρ : Dev nD → PrngReg) (c : Dev nD)

theorem zeros2 : (![0, 0] : Fin 2 → Nat) = fun _ => 0 := funext fun a => by fin_cases a <;> rfl
theorem zeros3 : (![0, 0, 0] : Fin 3 → Nat) = fun _ => 0 := funext fun a => by fin_cases a <;> rfl
theorem zeros4 : (![0, 0, 0, 0] : Fin 4 → Nat) = fun _ => 0 := funext fun a => by fin_cases a <;> rfl

/-- The whole-array function at an index with known coordinates. -/
theorem kernelArray_at (SM : (⟨3, ![2, 128, 128]⟩ : Shape).Idx → EReal) (PT : (⟨4, ![2, 32, 128, 128]⟩ : Shape).Idx → EReal)
    (DIST : (⟨3, ![2, 128, 128]⟩ : Shape).Idx → EReal) (ZT : (⟨4, ![2, 32, 128, 128]⟩ : Shape).Idx → EReal)
    (DM : (⟨3, ![2, 128, 128]⟩ : Shape).Idx → EReal) (EYE : (⟨2, ![128, 128]⟩ : Shape).Idx → EReal)
    (y : (⟨4, ![2, 32, 128, 128]⟩ : Shape).Idx) (s : Fin 2) (d : Fin 32) (i j : Fin 128)
    (h0 : (y 0).val = s.val) (h1 : (y 1).val = d.val) (h2 : (y 2).val = i.val) (h3 : (y 3).val = j.val) :
    kernelArray SM PT DIST ZT DM EYE y = kernelEntry SM PT DIST ZT DM EYE s d i j := by
  have e : y = ix4 s d i j := funext fun a => Fin.ext (by
    match a with | ⟨0, _⟩ => exact h0 | ⟨1, _⟩ => exact h1 | ⟨2, _⟩ => exact h2 | ⟨3, _⟩ => exact h3)
  rw [e]
  rfl

/-- The printed index maps, decided over the 64 grid points: every input window sits at the output window's spin (and
    determinant), all other block coordinates are 0. -/
theorem index_facts : ∀ t : Fin cfg0.N,
    win0_0.index t (0 : Fin 3) = win0_6.index t (0 : Fin 4) ∧ win0_0.index t (1 : Fin 3) = 0 ∧ win0_0.index t (2 : Fin 3) = 0
    ∧ win0_1.index t (0 : Fin 3) = win0_6.index t (0 : Fin 4) ∧ win0_1.index t (1 : Fin 3) = 0 ∧ win0_1.index t (2 : Fin 3) = 0
    ∧ win0_2.index t (0 : Fin 4) = win0_6.index t (0 : Fin 4) ∧ win0_2.index t (1 : Fin 4) = win0_6.index t (1 : Fin 4)
      ∧ win0_2.index t (2 : Fin 4) = 0 ∧ win0_2.index t (3 : Fin 4) = 0
    ∧ win0_3.index t (0 : Fin 4) = win0_6.index t (0 : Fin 4) ∧ win0_3.index t (1 : Fin 4) = win0_6.index t (1 : Fin 4)
      ∧ win0_3.index t (2 : Fin 4) = 0 ∧ win0_3.index t (3 : Fin 4) = 0
    ∧ win0_4.index t (0 : Fin 3) = win0_6.index t (0 : Fin 4) ∧ win0_4.index t (1 : Fin 3) = 0 ∧ win0_4.index t (2 : Fin 3) = 0
    ∧ win0_5.index t (0 : Fin 2) = 0 ∧ win0_5.index t (1 : Fin 2) = 0
    ∧ win0_6.index t (2 : Fin 4) = 0 ∧ win0_6.index t (3 : Fin 4) = 0
    ∧ win0_6.index t (0 : Fin 4) < 2 ∧ win0_6.index t (1 : Fin 4) < 32 :=
  (by decide +kernel : ∀ t : Fin grid0.N, _)

/-- Every (spin, determinant) block is some point's. -/
theorem index_onto : ∀ (q0 : Fin 2) (q1 : Fin 32), ∃ t : Fin cfg0.N, win0_6.index t = ![q0.val, q1.val, 0, 0] :=
  (by decide +kernel : ∀ (q0 : Fin 2) (q1 : Fin 32), ∃ t : Fin grid0.N, win0_6.index t = ![q0.val, q1.val, 0, 0])

/-- An index of the result is in point `t`'s block iff each coordinate is in the block's range on its axis. -/
theorem mem_blk (t : Fin cfg0.N) (y : S2x32x128x128.Idx) :
    y ∈ ((cfg0.win 6).blk t).view.set ↔ ∀ a : Fin 4, win0_6.index t a * S1x1x128x128.size a ≤ (y a).val
      ∧ (y a).val < win0_6.index t a * S1x1x128x128.size a + S1x1x128x128.size a := by
  show y ∈ ((View.whole main_v93).slice (win0_6.rect t)).set ↔ _
  rw [View.set_slice_whole, Rect.mem_set_unit]
  exact Iff.rfl

/-- The 64 blocks cover the result: index (s, d, i, j) is in the block of the point at (s, d). -/
theorem covered (y : S2x32x128x128.Idx) : ∃ t : Fin cfg0.N, (cfg0.win 6).flush t = true ∧ y ∈ ((cfg0.win 6).blk t).view.set := by
  have h0 : (y 0).val < 2 := (y 0).isLt
  have h1 : (y 1).val < 32 := (y 1).isLt
  have h2 : (y 2).val < 128 := (y 2).isLt
  have h3 : (y 3).val < 128 := (y 3).isLt
  obtain ⟨t, ht⟩ := index_onto ⟨(y 0).val, h0⟩ ⟨(y 1).val, h1⟩
  have q0 : win0_6.index t (0 : Fin 4) = (y 0).val := congrFun ht 0
  have q1 : win0_6.index t (1 : Fin 4) = (y 1).val := congrFun ht 1
  have q2 : win0_6.index t (2 : Fin 4) = 0 := congrFun ht 2
  have q3 : win0_6.index t (3 : Fin 4) = 0 := congrFun ht 3
  refine ⟨t, flush0_6 t, ?_⟩
  rw [mem_blk]
  intro a
  match a with
  | ⟨0, _⟩ => show win0_6.index t (0 : Fin 4) * 1 ≤ (y 0).val ∧ (y 0).val < win0_6.index t (0 : Fin 4) * 1 + 1; omega
  | ⟨1, _⟩ => show win0_6.index t (1 : Fin 4) * 1 ≤ (y 1).val ∧ (y 1).val < win0_6.index t (1 : Fin 4) * 1 + 1; omega
  | ⟨2, _⟩ => show win0_6.index t (2 : Fin 4) * 128 ≤ (y 2).val ∧ (y 2).val < win0_6.index t (2 : Fin 4) * 128 + 128; omega
  | ⟨3, _⟩ => show win0_6.index t (3 : Fin 4) * 128 ≤ (y 3).val ∧ (y 3).val < win0_6.index t (3 : Fin 4) * 128 + 128; omega

end Cert.Envelope

end
-- ==== Proof.BlockReads.lean ====
/-
  The windows' blocks at a grid point, for ANY arrays.

  At the point of spin s and determinant d: the block of a [2, 128, 128] window is its array at spin s, the block of a
  [2, 32, 128, 128] window its array at (s, d), the identity window's block its whole array; and a block function
  written back is block (s, d) of an array G as soon as its entry (0, 0, i, j) is G at (s, d, i, j). Stated over
  arbitrary arrays, so that nothing about what the arrays hold is ever opened here.
-/
import proofs.«155584_j21895743275104_2_alg».proof.Proof.BlockFacts

noncomputable section

namespace Cert.Envelope

open Idealize.ShloMosaic Idealize.ShloMosaic.TcCoe Idealize.SL.Sem Idealize.ShloMosaic.ValueIdx
open Idealize.ShloMosaic.Pipeline (Dat)
open Cert.KernelIdeal Cert.KernelIdeal.Facts₀ Cert.KernelIdeal.Gen Cert.KernelIdeal.Value

/-- What the body leaves at (0, 0, i, j) of the output window's buffer, for any six input blocks. -/
theorem out_at (x0 : Vec Ideal S1x128x128 .f32) (x1 : Vec Ideal S1x128x128 .f32) (x2 : Vec Ideal S1x1x128x128 .f32)
    (x3 : Vec Ideal S1x1x128x128 .f32) (x4 : Vec Ideal S1x128x128 .f32) (x5 : Vec Ideal S128x128 .f32) (i j : Fin 128) :
    out0_6 x0 x1 x2 x3 x4 x5 (ix4 (0 : Fin 1) (0 : Fin 1) i j) = bodyEntry x4 x3 x0 x2 x1 x5 i j := by
  unfold out0_6
  refine (canon6_eq (View.ld x4 r0_0) (View.ld x3 r0_1) (View.ld x0 r0_0) (View.ld x2 r0_1) (View.ld x1 r0_0) (View.ld x5 r0_2)
    (ix4 (0 : Fin 1) (0 : Fin 1) i j)).trans ?_
  simp only [View.ld_unit_zero (S := S1x128x128) zeros3, View.ld_unit_zero (S := S1x1x128x128) zeros4, View.ld_unit_zero (S := S128x128) zeros2]
  exact body_at x4 x3 x0 x2 x1 x5 i j

/-! ## The windows' blocks at a point, for ANY arrays -/

section AnyArrays

variable (t : Fin cfg0.N) (s : Fin 2) (d : Fin 32)
  (hs : s.val = win0_6.index t (0 : Fin 4)) (hd : d.val = win0_6.index t (1 : Fin 4))
include hs hd

/-- A block function written back at point `t` is block `t` of an array `G` as soon as its entry (0, 0, i, j) is
    `G` at (s, d, i, j), (s, d) the point's spin and determinant. -/
theorem write_shape (F : Vec Ideal S1x1x128x128 .f32) (G : S2x32x128x128.Idx → EReal)
    (h : ∀ i j : Fin 128, F (ix4 (0 : Fin 1) (0 : Fin 1) i j) = G (ix4 s d i j)) :
    (cfg0.win 6).cut (grid0.coords t) F = ((cfg0.win 6).blk t).view.read (Elt Ideal) G := by
  obtain ⟨f00, f01, f02, f10, f11, f12, f20, f21, f22, f23, f30, f31, f32, f33, f40, f41, f42, f50, f51, f62, f63, hs', hd'⟩ := index_facts t
  funext y
  obtain ⟨i, j, rfl⟩ : ∃ (i j : Fin 128), y = ix4 (0 : Fin 1) (0 : Fin 1) i j := ⟨y 2, y 3, by
    funext a; apply Fin.ext
    have h0 : (y 0).val < 1 := (y 0).isLt
    have h1 : (y 1).val < 1 := (y 1).isLt
    match a with
    | ⟨0, _⟩ => show (y 0).val = 0; omega
    | ⟨1, _⟩ => show (y 1).val = 0; omega
    | ⟨2, _⟩ => rfl
    | ⟨3, _⟩ => rfl⟩
  show F (ix4 (0 : Fin 1) (0 : Fin 1) i j) = G (((cfg0.win 6).blk t).view.emb (ix4 (0 : Fin 1) (0 : Fin 1) i j))
  rw [h i j]
  refine congrArg G (funext fun a => Fin.ext ?_)
  match a with
  | ⟨0, _⟩ => show s.val = win0_6.index t (0 : Fin 4) * 1 + 1 * 0; omega
  | ⟨1, _⟩ => show d.val = win0_6.index t (1 : Fin 4) * 1 + 1 * 0; omega
  | ⟨2, _⟩ => show i.val = win0_6.index t (2 : Fin 4) * 128 + 1 * i.val; omega
  | ⟨3, _⟩ => show j.val = win0_6.index t (3 : Fin 4) * 128 + 1 * j.val; omega

omit hd in
/-- Window 0's block of any [2, 128, 128] array is the array at the point's spin. -/
theorem read_w0 (A : S2x128x128.Idx → EReal) (i k : Fin 128) :
    ((cfg0.win 0).blk t).view.read (Elt Ideal) A (ix3 (0 : Fin 1) i k) = A (ix3 s i k) := by
  obtain ⟨f00, f01, f02, f10, f11, f12, f20, f21, f22, f23, f30, f31, f32, f33, f40, f41, f42, f50, f51, f62, f63, hs', hd'⟩ := index_facts t
  show A (((cfg0.win 0).blk t).view.emb (ix3 (0 : Fin 1) i k)) = A (ix3 s i k)
  refine congrArg A (funext fun a => Fin.ext ?_)
  match a with
  | ⟨0, _⟩ => show win0_0.index t (0 : Fin 3) * 1 + 1 * 0 = s.val; omega
  | ⟨1, _⟩ => show win0_0.index t (1 : Fin 3) * 128 + 1 * i.val = i.val; omega
  | ⟨2, _⟩ => show win0_0.index t (2 : Fin 3) * 128 + 1 * k.val = k.val; omega

omit hd in
theorem read_w1 (A : S2x128x128.Idx → EReal) (i k : Fin 128) :
    ((cfg0.win 1).blk t).view.read (Elt Ideal) A (ix3 (0 : Fin 1) i k) = A (ix3 s i k) := by
  obtain ⟨f00, f01, f02, f10, f11, f12, f20, f21, f22, f23, f30, f31, f32, f33, f40, f41, f42, f50, f51, f62, f63, hs', hd'⟩ := index_facts t
  show A (((cfg0.win 1).blk t).view.emb (ix3 (0 : Fin 1) i k)) = A (ix3 s i k)
  refine congrArg A (funext fun a => Fin.ext ?_)
  match a with
  | ⟨0, _⟩ => show win0_1.index t (0 : Fin 3) * 1 + 1 * 0 = s.val; omega
  | ⟨1, _⟩ => show win0_1.index t (1 : Fin 3) * 128 + 1 * i.val = i.val; omega
  | ⟨2, _⟩ => show win0_1.index t (2 : Fin 3) * 128 + 1 * k.val = k.val; omega

omit hd in
theorem read_w4 (A : S2x128x128.Idx → EReal) (i j : Fin 128) :
    ((cfg0.win 4).blk t).view.read (Elt Ideal) A (ix3 (0 : Fin 1) i j) = A (ix3 s i j) := by
  obtain ⟨f00, f01, f02, f10, f11, f12, f20, f21, f22, f23, f30, f31, f32, f33, f40, f41, f42, f50, f51, f62, f63, hs', hd'⟩ := index_facts t
  show A (((cfg0.win 4).blk t).view.emb (ix3 (0 : Fin 1) i j)) = A (ix3 s i j)
  refine congrArg A (funext fun a => Fin.ext ?_)
  match a with
  | ⟨0, _⟩ => show win0_4.index t (0 : Fin 3) * 1 + 1 * 0 = s.val; omega
  | ⟨1, _⟩ => show win0_4.index t (1 : Fin 3) * 128 + 1 * i.val = i.val; omega
  | ⟨2, _⟩ => show win0_4.index t (2 : Fin 3) * 128 + 1 * j.val = j.val; omega

/-- Window 2's block of any [2, 32, 128, 128] array is the array at the point's spin and determinant. -/
theorem read_w2 (A : S2x32x128x128.Idx → EReal) (j k : Fin 128) :
    ((cfg0.win 2).blk t).view.read (Elt Ideal) A (ix4 (0 : Fin 1) (0 : Fin 1) j k) = A (ix4 s d j k) := by
  obtain ⟨f00, f01, f02, f10, f11, f12, f20, f21, f22, f23, f30, f31, f32, f33, f40, f41, f42, f50, f51, f62, f63, hs', hd'⟩ := index_facts t
  show A (((cfg0.win 2).blk t).view.emb (ix4 (0 : Fin 1) (0 : Fin 1) j k)) = A (ix4 s d j k)
  refine congrArg A (funext fun a => Fin.ext ?_)
  match a with
  | ⟨0, _⟩ => show win0_2.index t (0 : Fin 4) * 1 + 1 * 0 = s.val; omega
  | ⟨1, _⟩ => show win0_2.index t (1 : Fin 4) * 1 + 1 * 0 = d.val; omega
  | ⟨2, _⟩ => show win0_2.index t (2 : Fin 4) * 128 + 1 * j.val = j.val; omega
  | ⟨3, _⟩ => show win0_2.index t (3 : Fin 4) * 128 + 1 * k.val = k.val; omega

theorem read_w3 (A : S2x32x128x128.Idx → EReal) (j k : Fin 128) :
    ((cfg0.win 3).blk t).view.read (Elt Ideal) A (ix4 (0 : Fin 1) (0 : Fin 1) j k) = A (ix4 s d j k) := by
  obtain ⟨f00, f01, f02, f10, f11, f12, f20, f21, f22, f23, f30, f31, f32, f33, f40, f41, f42, f50, f51, f62, f63, hs', hd'⟩ := index_facts t
  show A (((cfg0.win 3).blk t).view.emb (ix4 (0 : Fin 1) (0 : Fin 1) j k)) = A (ix4 s d j k)
  refine congrArg A (funext fun a => Fin.ext ?_)
  match a with
  | ⟨0, _⟩ => show win0_3.index t (0 : Fin 4) * 1 + 1 * 0 = s.val; omega
  | ⟨1, _⟩ => show win0_3.index t (1 : Fin 4) * 1 + 1 * 0 = d.val; omega
  | ⟨2, _⟩ => show win0_3.index t (2 : Fin 4) * 128 + 1 * j.val = j.val; omega
  | ⟨3, _⟩ => show win0_3.index t (3 : Fin 4) * 128 + 1 * k.val = k.val; omega

omit hs hd in
/-- Window 5's block of any [128, 128] array is the whole array. -/
theorem read_w5 (A : S128x128.Idx → EReal) (i j : Fin 128) :
    ((cfg0.win 5).blk t).view.read (Elt Ideal) A (ix2 i j) = A (ix2 i j) := by
  obtain ⟨f00, f01, f02, f10, f11, f12, f20, f21, f22, f23, f30, f31, f32, f33, f40, f41, f42, f50, f51, f62, f63, hs', hd'⟩ := index_facts t
  show A (((cfg0.win 5).blk t).view.emb (ix2 i j)) = A (ix2 i j)
  refine congrArg A (funext fun a => Fin.ext ?_)
  match a with
  | ⟨0, _⟩ => show win0_5.index t (0 : Fin 2) * 128 + 1 * i.val = i.val; omega
  | ⟨1, _⟩ => show win0_5.index t (1 : Fin 2) * 128 + 1 * j.val = j.val; omega

end AnyArrays

/-! ## What a point writes back, for ANY six arrays -/

/-- At point `t`, the body run on the six windows' blocks of ANY arrays writes back block `t` of `kernelArray` of
    those arrays. -/
theorem writes_block (t : Fin cfg0.N) (A0 A1 : S2x128x128.Idx → EReal) (A2 A3 : S2x32x128x128.Idx → EReal)
    (A4 : S2x128x128.Idx → EReal) (A5 : S128x128.Idx → EReal) :
    (cfg0.win 6).cut (grid0.coords t)
        (out0_6 (((cfg0.win 0).blk t).view.read (Elt Ideal) A0) (((cfg0.win 1).blk t).view.read (Elt Ideal) A1)
          (((cfg0.win 2).blk t).view.read (Elt Ideal) A2) (((cfg0.win 3).blk t).view.read (Elt Ideal) A3)
          (((cfg0.win 4).blk t).view.read (Elt Ideal) A4) (((cfg0.win 5).blk t).view.read (Elt Ideal) A5))
      = ((cfg0.win 6).blk t).view.read (Elt Ideal) (kernelArray A4 A3 A0 A2 A1 A5) := by
  obtain ⟨f00, f01, f02, f10, f11, f12, f20, f21, f22, f23, f30, f31, f32, f33, f40, f41, f42, f50, f51, f62, f63, hs, hd⟩ := index_facts t
  refine write_shape t ⟨win0_6.index t (0 : Fin 4), hs⟩ ⟨win0_6.index t (1 : Fin 4), hd⟩ rfl rfl _ _ (fun i j => ?_)
  refine (out_at _ _ _ _ _ _ i j).trans ?_
  refine (bodyEntry_of_blocks _ _ _ _ _ _ A4 A3 A0 A2 A1 A5
    ⟨win0_6.index t (0 : Fin 4), hs⟩ ⟨win0_6.index t (1 : Fin 4), hd⟩ ?_ ?_ ?_ ?_ ?_ ?_ i j).trans ?_
  · exact fun i j => read_w4 t _ rfl A4 i j
  · exact fun j k => read_w3 t _ _ rfl rfl A3 j k
  · exact fun i k => read_w0 t _ rfl A0 i k
  · exact fun j k => read_w2 t _ _ rfl rfl A2 j k
  · exact fun i k => read_w1 t _ rfl A1 i k
  · exact fun i j => read_w5 t A5 i j
  · rfl

end Cert.Envelope

end
-- ==== Proof.Blocks.lean ====
/-
  From blocks to the whole array.

  What a grid point (spin s, determinant d) writes back is block (s, d) of ONE function of the six input arrays
  (`kernelArray`): the windows' blocks at the point are the arrays, as the region finds them, read through the blocks,
  and for any arrays the body run on such blocks writes that block. The 64 blocks tile the result, so the result ends
  holding that function.
-/
import proofs.«155584_j21895743275104_2_alg».proof.Proof.BlockReads

noncomputable section

namespace Cert.Envelope

open Idealize.ShloMosaic Idealize.ShloMosaic.TcCoe Idealize.SL.Sem Idealize.ShloMosaic.ValueIdx
open Idealize.ShloMosaic.Pipeline (Dat)
open Cert.KernelIdeal Cert.KernelIdeal.Facts₀ Cert.KernelIdeal.Gen Cert.KernelIdeal.Value

variable (m : (ℓ : Loc nD τ sig) → Buf (Elt Ideal) ℓ) (c : Dev nD)

/-- WHAT POINT `t` WRITES BACK is block `t` of `kernelArray` of the six arrays as the region finds them. -/
theorem flushed_eq (t : Fin cfg0.N) :
    (dats m 0 c).flushed 6 t = ((cfg0.win 6).blk t).view.read (Elt Ideal)
      (kernelArray (V m c (Pipeline.arrRef spec0 4)) (V m c (Pipeline.arrRef spec0 3)) (V m c (Pipeline.arrRef spec0 0))
        (V m c (Pipeline.arrRef spec0 2)) (V m c (Pipeline.arrRef spec0 1)) (V m c (Pipeline.arrRef spec0 5))) := by
  rw [flushed6]
  exact writes_block t (V m c (Pipeline.arrRef spec0 0)) (V m c (Pipeline.arrRef spec0 1)) (V m c (Pipeline.arrRef spec0 2))
    (V m c (Pipeline.arrRef spec0 3)) (V m c (Pipeline.arrRef spec0 4)) (V m c (Pipeline.arrRef spec0 5))

/-- THE RESULT ARRAY after the run is `kernelArray` of the six arrays as the region finds them. -/
theorem final : (dats m 0 c).arrAt 6 cfg0.N
    = kernelArray (V m c (Pipeline.arrRef spec0 4)) (V m c (Pipeline.arrRef spec0 3)) (V m c (Pipeline.arrRef spec0 0))
        (V m c (Pipeline.arrRef spec0 2)) (V m c (Pipeline.arrRef spec0 1)) (V m c (Pipeline.arrRef spec0 5)) :=
  (dats m 0 c).arrAt_eq_of_cover 6 _ (fun t _ => flushed_eq m c t) covered

end Cert.Envelope

end
-- ==== Proof.Windows.lean ====
/-
  What the kernel's six input arrays hold when the region is entered.

  The host code in front of the kernel computes, for each spin, the same intermediate arrays as the reference does —
  the transposed products zt = (feats · W_pi)ᵀ and pt = (feats · W_zeta)ᵀ of shape [4096, 128], the distances
  dist [128, 128], the pair mask [128, 128], the electron–orbital mask [128, 128], the identity [128, 128] — by the
  same operations on the same arguments, and then only re-lays them: the two spins' arrays are stacked along a new
  leading axis (after the [4096, 128] arrays are split into [32, 128, 128], row d·128 + j becoming (d, j)), and the
  masks are turned into 0/1 numbers. So each window's array is a two-piece stack of the reference's own stage functions.
-/
import proofs.«155584_j21895743275104_2_alg».proof.Proof.Gen.KernelIdeal.Frame
import proofs.«155584_j21895743275104_2_alg».proof.Proof.Gen.ReferenceIdeal.Read
import Idealize.ShloMosaic.Lib.StableHlo.Run

noncomputable section

namespace Cert.Envelope

open Idealize.ShloMosaic Idealize.ShloMosaic.TcCoe Idealize.SL.Sem Idealize.ShloMosaic.StableHlo
open Cert.KernelIdeal Cert.KernelIdeal.Gen
open Cert.ReferenceIdeal.Read (val_main_v19 val_main_v21 val_main_v31 val_main_v35 val_main_v56 val_main_v62)

/-- Two [128, 128] arrays stacked along a new leading axis of extent 2. -/
def stack3 {α : Type} (A B : S128x128.Idx → α) : S2x128x128.Idx → α :=
  concatenate S2x128x128 0
    [⟨S1x128x128, broadcastInDim S1x128x128 ![1, 2] bcast_S128x128_S1x128x128_1_2 A⟩,
     ⟨S1x128x128, broadcastInDim S1x128x128 ![1, 2] bcast_S128x128_S1x128x128_1_2 B⟩]
    concatenates_S1x128x128_S1x128x128_S2x128x128_d0

/-- Two [4096, 128] arrays, each split into [32, 128, 128], stacked along a new leading axis of extent 2. -/
def stack4 {α : Type} (A B : S4096x128.Idx → α) : S2x32x128x128.Idx → α :=
  concatenate S2x32x128x128 0
    [⟨S1x32x128x128, broadcastInDim S1x32x128x128 ![1, 2, 3] bcast_S32x128x128_S1x32x128x128_1_2_3
        (shapeCast S32x128x128 A shapeCasts_S4096x128_S32x128x128)⟩,
     ⟨S1x32x128x128, broadcastInDim S1x32x128x128 ![1, 2, 3] bcast_S32x128x128_S1x32x128x128_1_2_3
        (shapeCast S32x128x128 B shapeCasts_S4096x128_S32x128x128)⟩]
    concatenates_S1x32x128x128_S1x32x128x128_S2x32x128x128_d0

variable (m : (ℓ : Loc nD τ sig) → Buf (Elt Ideal) ℓ) (c : Dev nD)

/-- The arguments as launched, named by what they are. -/
abbrev upCoords := m ((c : Thread nD τ).loc main_arg0)
abbrev downCoords := m ((c : Thread nD τ).loc main_arg1)
abbrev nucCoords := m ((c : Thread nD τ).loc main_arg2)
abbrev nucCharges := m ((c : Thread nD τ).loc main_arg3)
abbrev wPiUp := m ((c : Thread nD τ).loc main_arg4)
abbrev wZetaUp := m ((c : Thread nD τ).loc main_arg5)
abbrev wPiDown := m ((c : Thread nD τ).loc main_arg6)
abbrev wZetaDown := m ((c : Thread nD τ).loc main_arg7)
abbrev upMask := m ((c : Thread nD τ).loc main_arg8)
abbrev downMask := m ((c : Thread nD τ).loc main_arg9)
abbrev nucMask := m ((c : Thread nD τ).loc main_arg10)

set_option maxHeartbeats 8000000 in
set_option maxRecDepth 8192 in
/-- Window 0: the two spins' distances. -/
theorem V_dist : (V m c main_v74 : S2x128x128.Idx → EReal)
    = stack3 (val_main_v35 (F := Ideal) (upCoords m c) (nucCoords m c) (upMask m c) (nucMask m c))
             (val_main_v35 (F := Ideal) (downCoords m c) (nucCoords m c) (downMask m c) (nucMask m c)) := by
  dsimp only [Gen.V]
  simp only [hostOps0, hostOps0_1, hostOps0_2, hostOps0_3, hostOps0_4, List.flatten_cons, List.flatten_nil, List.append_nil, List.cons_append, List.nil_append]
  after_results_simp
  rfl

set_option maxHeartbeats 8000000 in
set_option maxRecDepth 8192 in
/-- Window 1: the two spins' pair masks as 0/1 numbers. -/
theorem V_dmask : (V m c main_v77 : S2x128x128.Idx → EReal)
    = stack3 (uitofp (F := Ideal) .f32 (val_main_v31 (F := Ideal) (upMask m c) (nucMask m c)))
             (uitofp (F := Ideal) .f32 (val_main_v31 (F := Ideal) (downMask m c) (nucMask m c))) := by
  dsimp only [Gen.V]
  simp only [hostOps0, hostOps0_1, hostOps0_2, hostOps0_3, hostOps0_4, List.flatten_cons, List.flatten_nil, List.append_nil, List.cons_append, List.nil_append]
  after_results_simp
  rfl

set_option maxHeartbeats 8000000 in
set_option maxRecDepth 8192 in
/-- Window 2: the two spins' exponent factors. -/
theorem V_zeta : (V m c main_v80 : S2x32x128x128.Idx → EReal)
    = stack4 (val_main_v19 (F := Ideal) (nucCoords m c) (nucCharges m c) (wPiUp m c) (nucMask m c))
             (val_main_v19 (F := Ideal) (nucCoords m c) (nucCharges m c) (wPiDown m c) (nucMask m c)) := by
  dsimp only [Gen.V]
  simp only [hostOps0, hostOps0_1, hostOps0_2, hostOps0_3, hostOps0_4, List.flatten_cons, List.flatten_nil, List.append_nil, List.cons_append, List.nil_append]
  after_results_simp
  rfl

set_option maxHeartbeats 8000000 in
set_option maxRecDepth 8192 in
/-- Window 3: the two spins' nuclear weights. -/
theorem V_pi : (V m c main_v83 : S2x32x128x128.Idx → EReal)
    = stack4 (val_main_v21 (F := Ideal) (nucCoords m c) (nucCharges m c) (wZetaUp m c) (nucMask m c))
             (val_main_v21 (F := Ideal) (nucCoords m c) (nucCharges m c) (wZetaDown m c) (nucMask m c)) := by
  dsimp only [Gen.V]
  simp only [hostOps0, hostOps0_1, hostOps0_2, hostOps0_3, hostOps0_4, List.flatten_cons, List.flatten_nil, List.append_nil, List.cons_append, List.nil_append]
  after_results_simp
  rfl

set_option maxHeartbeats 8000000 in
set_option maxRecDepth 8192 in
/-- Window 4: the two spins' electron–orbital masks as 0/1 numbers. -/
theorem V_sm : (V m c main_v86 : S2x128x128.Idx → EReal)
    = stack3 (uitofp (F := Ideal) .f32 (val_main_v56 (F := Ideal) (upMask m c)))
             (uitofp (F := Ideal) .f32 (val_main_v56 (F := Ideal) (downMask m c))) := by
  dsimp only [Gen.V]
  simp only [hostOps0, hostOps0_1, hostOps0_2, hostOps0_3, hostOps0_4, List.flatten_cons, List.flatten_nil, List.append_nil, List.cons_append, List.nil_append]
  after_results_simp
  rfl

set_option maxHeartbeats 8000000 in
set_option maxRecDepth 8192 in
/-- Window 5: the identity matrix. -/
theorem V_eye : (V m c main_v92 : S128x128.Idx → EReal) = val_main_v62 (F := Ideal) := by
  dsimp only [Gen.V]
  simp only [hostOps0, hostOps0_1, hostOps0_2, hostOps0_3, hostOps0_4, List.flatten_cons, List.flatten_nil, List.append_nil, List.cons_append, List.nil_append]
  after_results_simp
  rfl

end Cert.Envelope

end
-- ==== Proof.Spec.lean ====
/-
  The function both programs compute, one spin at a time, over the extended reals.

  For one spin: `zt`, `pt` are the [4096, 128] exponent factors and nuclear weights (row `d·128 + j` is orbital `j` of
  determinant `d`, column `k` a nucleus), `dist` the [128, 128] electron–nucleus distances, `mask` which (electron,
  nucleus) pairs are real, `sm` which (electron, orbital) pairs are real, `eye` the identity matrix. Entry (d, i, j) is
      if sm(i, j) then  0 + Σ_k pt(d·128+j, k) · (if mask(i, k) then exp(−|dist(i, k) · zt(d·128+j, k)|) else 0)
      else eye(i, j).
  The kernel spells the inner selection as a product with the mask as a 0/1 number, the negation as `0 − x`, the outer
  selection as "the 0/1 number differs from 0", and its sum starts from nothing rather than from an initial zero; the laws
  below say each is the same value, for every extended real (no finiteness is needed: x·1 = x, x·0 = 0 and 0 − x = −x
  hold at the infinities too).
-/
import Idealize.ShloMosaic.PureOps.Ideal
import Idealize.ShloMosaic.PureOps.Ideal.Laws
import Idealize.ShloMosaic.Lib.ValueIdx
import Idealize.ShloMosaic.Lib.KernelVsHost

noncomputable section

namespace Cert.Envelope

open Idealize.ShloMosaic Idealize.ShloMosaic.ValueIdx

/-- Row `d·128 + j` of the 4096 orbital rows: orbital `j` of determinant `d`. -/
def row (d : Fin 32) (j : Fin 128) : Fin 4096 := ⟨d.val * 128 + j.val, by have := d.isLt; have := j.isLt; omega⟩

@[simp] theorem row_val (d : Fin 32) (j : Fin 128) : (row d j).val = d.val * 128 + j.val := rfl

/-- One nucleus's contribution: the weight times the masked exponential envelope. -/
def term (zt pt : (⟨2, ![4096, 128]⟩ : Shape).Idx → EReal) (dist : (⟨2, ![128, 128]⟩ : Shape).Idx → EReal)
    (mask : (⟨2, ![128, 128]⟩ : Shape).Idx → BitVec 1) (r : Fin 4096) (i k : Fin 128) : EReal :=
  FloatOps.mulf (F := Ideal) (φ := .f32) (pt (ix2 r k))
    (Scalar.select (mask (ix2 i k))
      (FloatOps.hostUnary (F := Ideal) (φ := .f32) .exp (FloatOps.hostNegf (F := Ideal) (φ := .f32)
        (FloatOps.hostAbsf (F := Ideal) (φ := .f32) (FloatOps.mulf (F := Ideal) (φ := .f32) (dist (ix2 i k)) (zt (ix2 r k))))))
      (FloatOps.ofBits (F := Ideal) .f32 0x00000000#32))

/-- One spin's entry (d, i, j). -/
def half (zt pt : (⟨2, ![4096, 128]⟩ : Shape).Idx → EReal) (dist : (⟨2, ![128, 128]⟩ : Shape).Idx → EReal)
    (mask sm : (⟨2, ![128, 128]⟩ : Shape).Idx → BitVec 1) (eye : (⟨2, ![128, 128]⟩ : Shape).Idx → EReal)
    (d : Fin 32) (i j : Fin 128) : EReal :=
  Scalar.select (sm (ix2 i j))
    (FloatOps.ofBits (F := Ideal) .f32 0x00000000#32 + ∑ k : Fin 128, term zt pt dist mask (row d j) i k)
    (eye (ix2 i j))

/-- The result array: the two spins' entries side by side along the leading axis. -/
def whole (hu hd : Fin 32 → Fin 128 → Fin 128 → EReal) : (⟨4, ![2, 32, 128, 128]⟩ : Shape).Idx → EReal := fun y =>
  if (y 0).val = 0 then hu ⟨(y 1).val, (y 1).isLt⟩ ⟨(y 2).val, (y 2).isLt⟩ ⟨(y 3).val, (y 3).isLt⟩
  else hd ⟨(y 1).val, (y 1).isLt⟩ ⟨(y 2).val, (y 2).isLt⟩ ⟨(y 3).val, (y 3).isLt⟩

theorem whole_up (hu hd : Fin 32 → Fin 128 → Fin 128 → EReal) (d : Fin 32) (i j : Fin 128) :
    whole hu hd (ix4 (0 : Fin 2) d i j) = hu d i j := if_pos rfl

theorem whole_down (hu hd : Fin 32 → Fin 128 → Fin 128 → EReal) (d : Fin 32) (i j : Fin 128) :
    whole hu hd (ix4 (1 : Fin 2) d i j) = hd d i j := if_neg Nat.one_ne_zero

/-! ## The kernel's spellings are the same values -/

/-- A one-bit word is 0 or 1. -/
theorem bit_cases (b : BitVec 1) : b = 0#1 ∨ b = 1#1 := by
  by_cases h : b = 1#1
  · exact Or.inr h
  · exact Or.inl (eq_zero_of_ne_one h)

/-- A bit read as a number is the real 0 or 1. -/
theorem uitofp_zero : FloatOps.uitofp (F := Ideal) .f32 (0#1 : BitVec 1) = (0 : EReal) := by
  show (((0#1 : BitVec 1).toNat : ℝ) : EReal) = 0
  simp
theorem uitofp_one : FloatOps.uitofp (F := Ideal) .f32 (1#1 : BitVec 1) = (1 : EReal) := by
  show (((1#1 : BitVec 1).toNat : ℝ) : EReal) = 1
  simp

/-- exp(0 − |x|) times the mask as a number is the selection between exp(−|x|) and 0. -/
theorem masked_envelope (x : EReal) (b : BitVec 1) :
    FloatOps.mulf (F := Ideal) (φ := .f32)
        (FloatOps.exp (F := Ideal) (φ := .f32) (FloatOps.subf (F := Ideal) (φ := .f32) (FloatOps.ofBits (F := Ideal) .f32 0x00000000#32)
          (FloatOps.absf (F := Ideal) (φ := .f32) x)))
        (FloatOps.uitofp (F := Ideal) .f32 b)
      = Scalar.select b
          (FloatOps.hostUnary (F := Ideal) (φ := .f32) .exp (FloatOps.hostNegf (F := Ideal) (φ := .f32) (FloatOps.hostAbsf (F := Ideal) (φ := .f32) x)))
          (FloatOps.ofBits (F := Ideal) .f32 0x00000000#32) := by
  rw [Ideal.subf_zero_eq_hostNegf]
  rcases bit_cases b with rfl | rfl
  · rw [select_zero, uitofp_zero]
    show _ * (0 : EReal) = Ideal.ofBits .f32 0x00000000#32
    rw [mul_zero, Ideal.ofBits_zero_f32]
  · rw [select_one, uitofp_one]
    show Ideal.exp _ * (1 : EReal) = Ideal.exp _
    rw [mul_one]
    rfl

/-- "The mask as a number differs from 0" is the mask. -/
theorem mask_ne_zero (b : BitVec 1) :
    FloatOps.cmpf (F := Ideal) (φ := .f32) .one (FloatOps.uitofp (F := Ideal) .f32 b) (FloatOps.ofBits (F := Ideal) .f32 0x00000000#32) = b := by
  show Ideal.cmp .one _ (Ideal.ofBits .f32 0x00000000#32) = b
  rw [Ideal.ofBits_zero_f32]
  rcases bit_cases b with rfl | rfl
  · rw [uitofp_zero]; simp [Ideal.cmp]
  · rw [uitofp_one]; simp [Ideal.cmp]

end Cert.Envelope

end
-- ==== Proof.Stacks.lean ====
/-
  The two stacking shapes of the kernel's input arrays, read at an index.

  A stack of two [128, 128] arrays at (s, i, k) is the first array at (i, k) when s = 0 and the second when s = 1.
  A stack of two [4096, 128] arrays, each first split into [32, 128, 128], at (s, d, j, k) is the chosen array at
  (d·128 + j, k): splitting a row-major array's leading axis 4096 = 32 · 128 sends row d·128 + j to (d, j).
-/
import proofs.«155584_j21895743275104_2_alg».proof.Proof.Windows
import proofs.«155584_j21895743275104_2_alg».proof.Proof.Spec
import Idealize.ShloMosaic.Lib.Pipeline.Value
import Idealize.ShloMosaic.Lib.ValueIdx

noncomputable section

namespace Cert.Envelope

open Idealize.ShloMosaic Idealize.ShloMosaic.ValueIdx
open Cert.KernelIdeal Cert.KernelIdeal.Facts₀

variable {α : Type}

theorem stack3_up (A B : S128x128.Idx → α) (i k : Fin 128) : stack3 A B (ix3 (0 : Fin 2) i k) = A (ix2 i k) := by
  unfold stack3
  refine (concatenate_pair_apply_left (t := S2x128x128) (s₁ := S1x128x128) (s₂ := S1x128x128) (0 : Fin 3) _ _ concatenates_S1x128x128_S1x128x128_S2x128x128_d0
    (ix3 (0 : Fin 2) i k) rfl (ix3 (0 : Fin 1) i k) (fun b => by
      match b with | ⟨0, _⟩ => rfl | ⟨1, _⟩ => rfl | ⟨2, _⟩ => rfl)).trans ?_
  exact broadcastInDim_apply _ bcast_S128x128_S1x128x128_1_2 A (ix3 (0 : Fin 1) i k) (ix2 i k) (fun a => by
    match a with
    | ⟨0, _⟩ => show i.val = if (128 : Nat) = 1 then 0 else i.val; rw [if_neg (by decide)]
    | ⟨1, _⟩ => show k.val = if (128 : Nat) = 1 then 0 else k.val; rw [if_neg (by decide)])

theorem stack3_down (A B : S128x128.Idx → α) (i k : Fin 128) : stack3 A B (ix3 (1 : Fin 2) i k) = B (ix2 i k) := by
  unfold stack3
  refine (concatenate_pair_apply_right (t := S2x128x128) (s₁ := S1x128x128) (s₂ := S1x128x128) (0 : Fin 3) _ _ concatenates_S1x128x128_S1x128x128_S2x128x128_d0
    (ix3 (1 : Fin 2) i k) rfl rfl (ix3 (0 : Fin 1) i k) (fun b hb => by
      match b, hb with
      | ⟨0, _⟩, hb => exact absurd rfl hb
      | ⟨1, _⟩, _ => rfl | ⟨2, _⟩, _ => rfl) rfl).trans ?_
  exact broadcastInDim_apply _ bcast_S128x128_S1x128x128_1_2 B (ix3 (0 : Fin 1) i k) (ix2 i k) (fun a => by
    match a with
    | ⟨0, _⟩ => show i.val = if (128 : Nat) = 1 then 0 else i.val; rw [if_neg (by decide)]
    | ⟨1, _⟩ => show k.val = if (128 : Nat) = 1 then 0 else k.val; rw [if_neg (by decide)])

/-- One [4096, 128] array split into [32, 128, 128] and given a leading unit axis, read at (0, d, j, k). -/
theorem split_at (A : S4096x128.Idx → α) (d : Fin 32) (j k : Fin 128) :
    broadcastInDim S1x32x128x128 ![1, 2, 3] bcast_S32x128x128_S1x32x128x128_1_2_3
        (shapeCast S32x128x128 A shapeCasts_S4096x128_S32x128x128) (ix4 (0 : Fin 1) d j k) = A (ix2 (row d j) k) := by
  refine (broadcastInDim_apply _ bcast_S32x128x128_S1x32x128x128_1_2_3 _ (ix4 (0 : Fin 1) d j k) (ix3 d j k) (fun a => by
    match a with
    | ⟨0, _⟩ => show d.val = if (32 : Nat) = 1 then 0 else d.val; rw [if_neg (by decide)]
    | ⟨1, _⟩ => show j.val = if (128 : Nat) = 1 then 0 else j.val; rw [if_neg (by decide)]
    | ⟨2, _⟩ => show k.val = if (128 : Nat) = 1 then 0 else k.val; rw [if_neg (by decide)])).trans ?_
  refine shapeCast_apply A shapeCasts_S4096x128_S32x128x128 (ix3 d j k) (ix2 (row d j) k) ?_
  rw [Shape.rowMajor_val_two, Shape.rowMajor_val_three]
  show (d.val * 128 + j.val) * 128 + k.val = (d.val * 128 + j.val) * 128 + k.val
  rfl

theorem stack4_up (A B : S4096x128.Idx → α) (d : Fin 32) (j k : Fin 128) :
    stack4 A B (ix4 (0 : Fin 2) d j k) = A (ix2 (row d j) k) := by
  unfold stack4
  refine (concatenate_pair_apply_left (t := S2x32x128x128) (s₁ := S1x32x128x128) (s₂ := S1x32x128x128) (0 : Fin 4) _ _ concatenates_S1x32x128x128_S1x32x128x128_S2x32x128x128_d0
    (ix4 (0 : Fin 2) d j k) rfl (ix4 (0 : Fin 1) d j k) (fun b => by
      match b with | ⟨0, _⟩ => rfl | ⟨1, _⟩ => rfl | ⟨2, _⟩ => rfl | ⟨3, _⟩ => rfl)).trans ?_
  exact split_at A d j k

theorem stack4_down (A B : S4096x128.Idx → α) (d : Fin 32) (j k : Fin 128) :
    stack4 A B (ix4 (1 : Fin 2) d j k) = B (ix2 (row d j) k) := by
  unfold stack4
  refine (concatenate_pair_apply_right (t := S2x32x128x128) (s₁ := S1x32x128x128) (s₂ := S1x32x128x128) (0 : Fin 4) _ _ concatenates_S1x32x128x128_S1x32x128x128_S2x32x128x128_d0
    (ix4 (1 : Fin 2) d j k) rfl rfl (ix4 (0 : Fin 1) d j k) (fun b hb => by
      match b, hb with
      | ⟨0, _⟩, hb => exact absurd rfl hb
      | ⟨1, _⟩, _ => rfl | ⟨2, _⟩, _ => rfl | ⟨3, _⟩, _ => rfl) rfl).trans ?_
  exact split_at B d j k

end Cert.Envelope

end
-- ==== Proof.RefSide.lean ====
/-
  The reference, read entry by entry.

  For one spin the reference forms, for every electron i, every one of the 4096 orbital rows r and every nucleus k, the
  product pt(r, k) · (if mask(i, k) then exp(−|dist(i, k) · zt(r, k)|) else 0), sums over k from an initial 0, re-lays the
  [128, 4096] result as [128, 32, 128] (row r = d·128 + j becomes (d, j)) and swaps the first two axes, and finally
  selects between that and the identity by the electron–orbital mask. Read at (d, i, j) this is `half … d i j`.
  The second spin goes through the same operations on its own arguments, and the result stacks the two.
-/
import proofs.«155584_j21895743275104_2_alg».proof.Proof.Gen.ReferenceIdeal.Read
import proofs.«155584_j21895743275104_2_alg».proof.Proof.Spec
import Idealize.ShloMosaic.Lib.Pipeline.Value
import Idealize.ShloMosaic.Lib.ValueIdx

noncomputable section

namespace Cert.Envelope.Ref

open Idealize.ShloMosaic Idealize.ShloMosaic.ValueIdx
open Cert.ReferenceIdeal Cert.ReferenceIdeal.Facts₀ Cert.ReferenceIdeal.Read Cert.Envelope

variable (x0 x1 x2 : (⟨S128x3, .f32⟩ : BufTy).Contents (Elt Ideal)) (x3 : (⟨S128, .f32⟩ : BufTy).Contents (Elt Ideal))
  (x4 x5 x6 x7 : (⟨S4x4096, .f32⟩ : BufTy).Contents (Elt Ideal)) (x8 x9 x10 : (⟨S128, .i1⟩ : BufTy).Contents (Elt Ideal))

/-- One nucleus's term of the reference's sum is the specification's. -/
theorem term_at (r : Fin 4096) (i k : Fin 128) :
    val_main_v48 (F := Ideal) x0 x2 x3 x4 x5 x8 x10 (ix3 i r k)
      = term (val_main_v19 (F := Ideal) x2 x3 x4 x10) (val_main_v21 (F := Ideal) x2 x3 x5 x10)
          (val_main_v35 (F := Ideal) x0 x2 x8 x10) (val_main_v31 (F := Ideal) x8 x10) r i k := by
  have e_pt : idx_main_v46 (idx_main_v47 (ix3 i r k)) = ix2 r k :=
    funext fun a => by match a with | ⟨0, _⟩ => rfl | ⟨1, _⟩ => rfl
  have e_mask : idx_main_v36 (idx_main_call1_v1 (ix3 i r k)) = ix2 i k :=
    funext fun a => by match a with | ⟨0, _⟩ => rfl | ⟨1, _⟩ => rfl
  have e_dist : idx_main_v37 (idx_main_v39 (ix3 i r k)) = ix2 i k :=
    funext fun a => by match a with | ⟨0, _⟩ => rfl | ⟨1, _⟩ => rfl
  have e_zt : idx_main_v38 (idx_main_v40 (ix3 i r k)) = ix2 r k :=
    funext fun a => by match a with | ⟨0, _⟩ => rfl | ⟨1, _⟩ => rfl
  rw [val_main_v48_apply, val_main_v47_apply, val_main_v46_apply, val_main_v45_apply, val_main_call1_v1_apply,
    val_main_v36_apply, val_main_call1_v2_apply, val_main_call1_v0_apply, val_main_cst_4_apply, val_main_v44_apply,
    val_main_v43_apply, val_main_v42_apply, val_main_v41_apply, val_main_v39_apply, val_main_v37_apply,
    val_main_v40_apply, val_main_v38_apply, e_pt, e_mask, e_dist, e_zt]
  rfl

/-- The first spin's array at (d, i, j). -/
theorem up_at (d : Fin 32) (i j : Fin 128) :
    val_main_v63 (F := Ideal) x0 x2 x3 x4 x5 x8 x10 (ix3 d i j)
      = half (val_main_v19 (F := Ideal) x2 x3 x4 x10) (val_main_v21 (F := Ideal) x2 x3 x5 x10)
          (val_main_v35 (F := Ideal) x0 x2 x8 x10) (val_main_v31 (F := Ideal) x8 x10) (val_main_v56 (F := Ideal) x8)
          (val_main_v62 (F := Ideal)) d i j := by
  have e_sm : idx_main_call2_v0 (ix3 d i j) = ix2 i j :=
    funext fun a => by match a with | ⟨0, _⟩ => rfl | ⟨1, _⟩ => rfl
  have e_eye : idx_main_call2_v1 (ix3 d i j) = ix2 i j :=
    funext fun a => by match a with | ⟨0, _⟩ => rfl | ⟨1, _⟩ => rfl
  have e_row : idx_main_v50 (idx_main_v51 (ix3 d i j)) = ix2 i (row d j) :=
    funext fun a => Fin.ext (by
      have hd : d.val < 32 := d.isLt
      have hi : i.val < 128 := i.isLt
      have hj : j.val < 128 := j.isLt
      match a with
      | ⟨0, _⟩ => show ((i.val * 32 + d.val) * 128 + j.val) / 4096 = i.val; omega
      | ⟨1, _⟩ => show ((i.val * 32 + d.val) * 128 + j.val) % 4096 = d.val * 128 + j.val; omega)
  have e_q : ∀ k : Fin 128, idx_main_v49 (ix2 i (row d j)) k = ix3 i (row d j) k := fun k =>
    funext fun a => by match a with | ⟨0, _⟩ => rfl | ⟨1, _⟩ => rfl | ⟨2, _⟩ => rfl
  rw [val_main_v63_apply, val_main_call2_v0_apply, val_main_call2_v1_apply, val_main_v51_apply, val_main_v50_apply,
    e_sm, e_eye, e_row, val_main_v49_apply]
  unfold half
  refine congrArg (fun z => Scalar.select _ z _) ?_
  refine congrArg (fun z => _ + z) ?_
  refine Finset.sum_congr rfl fun k _ => ?_
  rw [e_q k]
  exact term_at x0 x2 x3 x4 x5 x8 x10 (row d j) i k

/-- The second spin's array is the first spin's function of the second spin's arguments: the same operations. -/
theorem down_is_up : val_main_v109 (F := Ideal) x1 x2 x3 x6 x7 x9 x10 = val_main_v63 (F := Ideal) x1 x2 x3 x6 x7 x9 x10 := rfl

/-- What both programs compute, as a function of the eleven arguments. -/
def result : (⟨4, ![2, 32, 128, 128]⟩ : Shape).Idx → EReal :=
  whole
    (half (val_main_v19 (F := Ideal) x2 x3 x4 x10) (val_main_v21 (F := Ideal) x2 x3 x5 x10)
      (val_main_v35 (F := Ideal) x0 x2 x8 x10) (val_main_v31 (F := Ideal) x8 x10) (val_main_v56 (F := Ideal) x8) (val_main_v62 (F := Ideal)))
    (half (val_main_v19 (F := Ideal) x2 x3 x6 x10) (val_main_v21 (F := Ideal) x2 x3 x7 x10)
      (val_main_v35 (F := Ideal) x1 x2 x9 x10) (val_main_v31 (F := Ideal) x9 x10) (val_main_v56 (F := Ideal) x9) (val_main_v62 (F := Ideal)))

/-- The reference's result array is `result`. -/
theorem ref_is_result : val_main_v112 (F := Ideal) x0 x1 x2 x3 x4 x5 x6 x7 x8 x9 x10 = result x0 x1 x2 x3 x4 x5 x6 x7 x8 x9 x10 := by
  funext y
  obtain ⟨s, d, i, j, rfl⟩ : ∃ (s : Fin 2) (d : Fin 32) (i j : Fin 128), y = ix4 s d i j := ⟨y 0, y 1, y 2, y 3, eq_ix4 y⟩
  have e3 : ∀ s' : Fin 1, idx_main_v110 (ix4 s' d i j) = ix3 d i j := fun s' =>
    funext fun a => by match a with | ⟨0, _⟩ => rfl | ⟨1, _⟩ => rfl | ⟨2, _⟩ => rfl
  have e3' : ∀ s' : Fin 1, idx_main_v111 (ix4 s' d i j) = ix3 d i j := fun s' =>
    funext fun a => by match a with | ⟨0, _⟩ => rfl | ⟨1, _⟩ => rfl | ⟨2, _⟩ => rfl
  unfold val_main_v112 result
  match s with
  | ⟨0, _⟩ =>
    refine (concatenate_pair_apply_left (t := S2x32x128x128) (s₁ := S1x32x128x128) (s₂ := S1x32x128x128) (0 : Fin 4) _ _ concatenates_S1x32x128x128_S1x32x128x128_S2x32x128x128_d0
      (ix4 (0 : Fin 2) d i j) rfl (ix4 (0 : Fin 1) d i j) (fun b => by
        match b with | ⟨0, _⟩ => rfl | ⟨1, _⟩ => rfl | ⟨2, _⟩ => rfl | ⟨3, _⟩ => rfl)).trans ?_
    rw [val_main_v110_apply, e3 0, up_at]
    exact (whole_up _ _ d i j).symm
  | ⟨1, _⟩ =>
    refine (concatenate_pair_apply_right (t := S2x32x128x128) (s₁ := S1x32x128x128) (s₂ := S1x32x128x128) (0 : Fin 4) _ _ concatenates_S1x32x128x128_S1x32x128x128_S2x32x128x128_d0
      (ix4 (1 : Fin 2) d i j) rfl rfl (ix4 (0 : Fin 1) d i j) (fun b hb => by
        match b, hb with
        | ⟨0, _⟩, hb => exact absurd rfl hb
        | ⟨1, _⟩, _ => rfl | ⟨2, _⟩, _ => rfl | ⟨3, _⟩, _ => rfl) rfl).trans ?_
    rw [val_main_v111_apply, e3' 0, down_is_up, up_at]
    exact (whole_down _ _ d i j).symm

end Cert.Envelope.Ref

end
-- ==== Proof.Bridge.lean ====
/-
  The kernel's array is the reference's.

  Put the stacks the host code builds into the kernel's entry. At spin 0 every stack reads its first piece, at spin 1 its
  second; the split [4096, 128] arrays are read at row d·128 + j. What is left is the kernel's spelling of one term against
  the reference's: the product with the 0/1 mask is the selection, "the 0/1 mask differs from 0" is the mask, and the sum
  from nothing is the sum from an initial zero.
-/
import proofs.«155584_j21895743275104_2_alg».proof.Proof.Stacks
import proofs.«155584_j21895743275104_2_alg».proof.Proof.Body
import proofs.«155584_j21895743275104_2_alg».proof.Proof.RefSide

noncomputable section

namespace Cert.Envelope

open Idealize.ShloMosaic Idealize.ShloMosaic.ValueIdx
open Cert.ReferenceIdeal.Read (val_main_v19 val_main_v21 val_main_v31 val_main_v35 val_main_v56 val_main_v62)

variable (zu zd pu pd : Cert.KernelIdeal.S4096x128.Idx → EReal) (du dd : Cert.KernelIdeal.S128x128.Idx → EReal)
  (bu bd su sd : Cert.KernelIdeal.S128x128.Idx → BitVec 1) (e : Cert.KernelIdeal.S128x128.Idx → EReal)

/-- The zero word is the extended real 0. -/
theorem zero_word : FloatOps.ofBits (F := Ideal) .f32 0x00000000#32 = (0 : EReal) := Ideal.ofBits_zero_f32

theorem entry_up (d : Fin 32) (i j : Fin 128) :
    kernelEntry (stack3 (uitofp (F := Ideal) .f32 su) (uitofp (F := Ideal) .f32 sd)) (stack4 pu pd) (stack3 du dd) (stack4 zu zd)
        (stack3 (uitofp (F := Ideal) .f32 bu) (uitofp (F := Ideal) .f32 bd)) e (0 : Fin 2) d i j
      = half zu pu du bu su e d i j := by
  unfold kernelEntry half
  rw [stack3_up (uitofp (F := Ideal) .f32 su) (uitofp (F := Ideal) .f32 sd) i j]
  show Scalar.select (FloatOps.cmpf (F := Ideal) (φ := .f32) .one (FloatOps.uitofp (F := Ideal) .f32 (su (ix2 i j))) _) _ _ = _
  rw [mask_ne_zero]
  refine congrArg (fun z => Scalar.select (su (ix2 i j)) z (e (ix2 i j))) ?_
  refine ((zero_add _).symm.trans (congrArg (fun z : EReal => z + _) zero_word.symm)).trans ?_
  refine congrArg (fun z : EReal => FloatOps.ofBits (F := Ideal) .f32 0x00000000#32 + z) ?_
  refine Finset.sum_congr rfl fun k _ => ?_
  rw [stack4_up pu pd d j k, stack4_up zu zd d j k, stack3_up du dd i k,
    stack3_up (uitofp (F := Ideal) .f32 bu) (uitofp (F := Ideal) .f32 bd) i k]
  show FloatOps.mulf (F := Ideal) (φ := .f32) (pu (ix2 (row d j) k))
      (FloatOps.mulf (F := Ideal) (φ := .f32) (FloatOps.exp (F := Ideal) (φ := .f32) (FloatOps.subf (F := Ideal) (φ := .f32) _
        (FloatOps.absf (F := Ideal) (φ := .f32) (FloatOps.mulf (F := Ideal) (φ := .f32) (du (ix2 i k)) (zu (ix2 (row d j) k))))))
        (FloatOps.uitofp (F := Ideal) .f32 (bu (ix2 i k)))) = _
  rw [masked_envelope]
  rfl

theorem entry_down (d : Fin 32) (i j : Fin 128) :
    kernelEntry (stack3 (uitofp (F := Ideal) .f32 su) (uitofp (F := Ideal) .f32 sd)) (stack4 pu pd) (stack3 du dd) (stack4 zu zd)
        (stack3 (uitofp (F := Ideal) .f32 bu) (uitofp (F := Ideal) .f32 bd)) e (1 : Fin 2) d i j
      = half zd pd dd bd sd e d i j := by
  unfold kernelEntry half
  rw [stack3_down (uitofp (F := Ideal) .f32 su) (uitofp (F := Ideal) .f32 sd) i j]
  show Scalar.select (FloatOps.cmpf (F := Ideal) (φ := .f32) .one (FloatOps.uitofp (F := Ideal) .f32 (sd (ix2 i j))) _) _ _ = _
  rw [mask_ne_zero]
  refine congrArg (fun z => Scalar.select (sd (ix2 i j)) z (e (ix2 i j))) ?_
  refine ((zero_add _).symm.trans (congrArg (fun z : EReal => z + _) zero_word.symm)).trans ?_
  refine congrArg (fun z : EReal => FloatOps.ofBits (F := Ideal) .f32 0x00000000#32 + z) ?_
  refine Finset.sum_congr rfl fun k _ => ?_
  rw [stack4_down pu pd d j k, stack4_down zu zd d j k, stack3_down du dd i k,
    stack3_down (uitofp (F := Ideal) .f32 bu) (uitofp (F := Ideal) .f32 bd) i k]
  show FloatOps.mulf (F := Ideal) (φ := .f32) (pd (ix2 (row d j) k))
      (FloatOps.mulf (F := Ideal) (φ := .f32) (FloatOps.exp (F := Ideal) (φ := .f32) (FloatOps.subf (F := Ideal) (φ := .f32) _
        (FloatOps.absf (F := Ideal) (φ := .f32) (FloatOps.mulf (F := Ideal) (φ := .f32) (dd (ix2 i k)) (zd (ix2 (row d j) k))))))
        (FloatOps.uitofp (F := Ideal) .f32 (bd (ix2 i k)))) = _
  rw [masked_envelope]
  rfl

/-- The kernel's whole array over the stacks is the two spins' `half`s side by side. -/
theorem kernelArray_of_stacks :
    kernelArray (stack3 (uitofp (F := Ideal) .f32 su) (uitofp (F := Ideal) .f32 sd)) (stack4 pu pd) (stack3 du dd) (stack4 zu zd)
        (stack3 (uitofp (F := Ideal) .f32 bu) (uitofp (F := Ideal) .f32 bd)) e
      = whole (half zu pu du bu su e) (half zd pd dd bd sd e) := by
  funext y
  obtain ⟨s, d, i, j, rfl⟩ : ∃ (s : Fin 2) (d : Fin 32) (i j : Fin 128), y = ix4 s d i j := ⟨y 0, y 1, y 2, y 3, eq_ix4 y⟩
  match s with
  | ⟨0, _⟩ => exact (entry_up zu zd pu pd du dd bu bd su sd e d i j).trans (whole_up _ _ d i j).symm
  | ⟨1, _⟩ => exact (entry_down zu zd pu pd du dd bu bd su sd e d i j).trans (whole_down _ _ d i j).symm

end Cert.Envelope

end
-- ==== Proof.KernelRun.lean ====
/-
  The kernel's result array, as a function of the launched arguments.

  After the run the result array is `kernelArray` of the six input arrays (the blocks tile it); the six input arrays are
  the stacks the host code builds from the arguments; and `kernelArray` of those stacks is the reference's `result`.
-/
import proofs.«155584_j21895743275104_2_alg».proof.Proof.Blocks
import proofs.«155584_j21895743275104_2_alg».proof.Proof.Bridge

noncomputable section

namespace Cert.Envelope

open Idealize.ShloMosaic Idealize.ShloMosaic.TcCoe Idealize.SL.Sem
open Cert.KernelIdeal Cert.KernelIdeal.Gen

/-- `kernelArray` of equal arrays. -/
theorem kernelArray_congr {SM SM' : (⟨3, ![2, 128, 128]⟩ : Shape).Idx → EReal} {PT PT' : (⟨4, ![2, 32, 128, 128]⟩ : Shape).Idx → EReal}
    {DIST DIST' : (⟨3, ![2, 128, 128]⟩ : Shape).Idx → EReal} {ZT ZT' : (⟨4, ![2, 32, 128, 128]⟩ : Shape).Idx → EReal}
    {DM DM' : (⟨3, ![2, 128, 128]⟩ : Shape).Idx → EReal} {EYE EYE' : (⟨2, ![128, 128]⟩ : Shape).Idx → EReal}
    (hsm : SM = SM') (hpt : PT = PT') (hdist : DIST = DIST') (hzt : ZT = ZT') (hdm : DM = DM') (heye : EYE = EYE') :
    kernelArray SM PT DIST ZT DM EYE = kernelArray SM' PT' DIST' ZT' DM' EYE' := by
  subst hsm hpt hdist hzt hdm heye
  rfl

variable (m : (ℓ : Loc nD τ sig) → Buf (Elt Ideal) ℓ) (c : Dev nD)

set_option maxHeartbeats 1000000 in
theorem kernel_result : (dats m 0 c).arrAt 6 cfg0.N
    = Ref.result (upCoords m c) (downCoords m c) (nucCoords m c) (nucCharges m c) (wPiUp m c) (wZetaUp m c)
        (wPiDown m c) (wZetaDown m c) (upMask m c) (downMask m c) (nucMask m c) := by
  refine (final m c).trans ?_
  -- each window's array reference is the buffer the host code wrote
  have e0 : V m c (Pipeline.arrRef spec0 0) = V m c main_v74 := rfl
  have e1 : V m c (Pipeline.arrRef spec0 1) = V m c main_v77 := rfl
  have e2 : V m c (Pipeline.arrRef spec0 2) = V m c main_v80 := rfl
  have e3 : V m c (Pipeline.arrRef spec0 3) = V m c main_v83 := rfl
  have e4 : V m c (Pipeline.arrRef spec0 4) = V m c main_v86 := rfl
  have e5 : V m c (Pipeline.arrRef spec0 5) = V m c main_v92 := rfl
  exact (kernelArray_congr (e4.trans (V_sm m c)) (e3.trans (V_pi m c)) (e0.trans (V_dist m c)) (e2.trans (V_zeta m c))
    (e1.trans (V_dmask m c)) (e5.trans (V_eye m c))).trans (kernelArray_of_stacks _ _ _ _ _ _ _ _ _ _ _)

end Cert.Envelope

end
-- ==== Proof.lean ====
/- The proof of `Cert.Claim` (proofs.«155584_j21895743275104_2_alg».proof.Defs).

   Both programs compute, for each spin, determinant d, electron i and orbital j,
       if sm(i, j) then Σ_k pt(d·128+j, k) · (if mask(i, k) then exp(−|dist(i, k) · zt(d·128+j, k)|) else 0) else eye(i, j),
   from the same intermediate arrays zt, pt, dist, mask, sm, eye, which both build from the arguments by the same
   operations. The reference does it for all 4096 orbital rows at once and re-lays the result; the kernel does it one
   (spin, determinant) block at a time, with the mask as a 0/1 factor. Proof/Spec.lean states the function and the three
   laws that join the two spellings (all hold at the infinities, so the precondition is never opened);
   Proof/RefSide.lean reads the reference; Proof/Windows.lean, Proof/Stacks.lean say what the kernel's input arrays hold;
   Proof/Body.lean reads the kernel body; Proof/Blocks.lean goes from blocks to the whole array; Proof/Bridge.lean and
   Proof/KernelRun.lean put them together. The frames are the generated ones; nothing was idealized away, so
   `preserves` is trivial. -/
import proofs.«155584_j21895743275104_2_alg».proof.Defs
import proofs.«155584_j21895743275104_2_alg».proof.Proof.Gen.Kernel
import proofs.«155584_j21895743275104_2_alg».proof.Proof.Gen.Kernel.Skeleton
import proofs.«155584_j21895743275104_2_alg».proof.Proof.Gen.Kernel.Launch
import proofs.«155584_j21895743275104_2_alg».proof.Proof.Gen.Kernel.Points
import proofs.«155584_j21895743275104_2_alg».proof.Proof.Gen.Kernel.Frame
import proofs.«155584_j21895743275104_2_alg».proof.Proof.Gen.KernelIdeal
import proofs.«155584_j21895743275104_2_alg».proof.Proof.Gen.KernelIdeal.Skeleton
import proofs.«155584_j21895743275104_2_alg».proof.Proof.Gen.KernelIdeal.Launch
import proofs.«155584_j21895743275104_2_alg».proof.Proof.Gen.KernelIdeal.Points
import proofs.«155584_j21895743275104_2_alg».proof.Proof.Gen.KernelIdeal.Frame
import proofs.«155584_j21895743275104_2_alg».proof.Proof.Gen.ReferenceIdeal
import proofs.«155584_j21895743275104_2_alg».proof.Proof.Gen.Pre_finite_inputs
import proofs.«155584_j21895743275104_2_alg».proof.Proof.Gen.KernelIdeal.Value
import proofs.«155584_j21895743275104_2_alg».proof.Proof.Gen.ReferenceIdeal.Run
import proofs.«155584_j21895743275104_2_alg».proof.Proof.Gen.ReferenceIdeal.Read
import proofs.«155584_j21895743275104_2_alg».proof.Proof.KernelRun
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- Both runs end with the result array at `result` of the (agreeing) arguments. -/
theorem algebraic : Cert.algebraic_KernelIdeal_ReferenceIdeal := by
  intro m ρ m' ρ' _ hagree
  refine ⟨fun c => Cert.Envelope.Ref.result (Cert.Envelope.upCoords m c) (Cert.Envelope.downCoords m c) (Cert.Envelope.nucCoords m c)
    (Cert.Envelope.nucCharges m c) (Cert.Envelope.wPiUp m c) (Cert.Envelope.wZetaUp m c) (Cert.Envelope.wPiDown m c)
    (Cert.Envelope.wZetaDown m c) (Cert.Envelope.upMask m c) (Cert.Envelope.downMask m c) (Cert.Envelope.nucMask m c), ?_, ?_⟩
  · exact (θ_run Cert.KernelIdeal.defs _ _).mono
      (fun r h c => ⟨(h c).1.trans (Cert.Envelope.kernel_result m c), (h c).2⟩)
      (Cert.KernelIdeal.Value.run_blocks (F := Ideal) m ρ)
  · refine (θ_run Cert.ReferenceIdeal.defs _ _).mono (fun r h c => ⟨?_, (h c).2⟩)
      (Cert.ReferenceIdeal.Value.run (F := Ideal) m' ρ')
    rw [(h c).1, Cert.ReferenceIdeal.Read.val_main_v112_eq, Cert.Envelope.Ref.ref_is_result,
      (hagree c).1, (hagree c).2.1, (hagree c).2.2.1, (hagree c).2.2.2.1, (hagree c).2.2.2.2.1, (hagree c).2.2.2.2.2.1,
      (hagree c).2.2.2.2.2.2.1, (hagree c).2.2.2.2.2.2.2.1, (hagree c).2.2.2.2.2.2.2.2.1, (hagree c).2.2.2.2.2.2.2.2.2.1,
      (hagree c).2.2.2.2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
